-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4x2048 : Shape := ⟨3, ![512, 4, 2048]⟩
abbrev S9x4x256 : Shape := ⟨3, ![9, 4, 256]⟩
abbrev S1x256 : Shape := ⟨2, ![1, 256]⟩
abbrev S_ : Shape := ⟨0, ![]⟩

class Facts : Prop where
  bcast_S_S512x4x2048 : S_.BroadcastsInDim S512x4x2048 (![] : Fin 0 → Fin S512x4x2048.rank)
  reducesTo_S512x4x2048_S_d0_1_2 : S512x4x2048.ReducesTo [0, 1, 2] S_
  h_S_ : 0 < S_.numel
  bcast_S_S9x4x256 : S_.BroadcastsInDim S9x4x256 (![] : Fin 0 → Fin S9x4x256.rank)
  reducesTo_S9x4x256_S_d0_1_2 : S9x4x256.ReducesTo [0, 1, 2] S_
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S512x4x2048 .f32) (main_arg1 : FVec F S9x4x256 .f32) (main_arg2 : FVec F S1x256 .f32) : IVec S_ 1 :=
  let main_v0 : FVec F S512x4x2048 .f32 := Host.absf main_arg0
  let main_cst : FVec F S_ .f32 := constant S_ .f32 0x7F800000#32
  let main_v1 : FVec F S512x4x2048 .f32 := broadcastInDim S512x4x2048 ![] bcast_S_S512x4x2048 main_cst
  let main_v2 : IVec S512x4x2048 1 := cmpf .olt main_v0 main_v1
  let main_c : IVec S_ 1 := constantI S_ 1 1#1
  let main_v3 : IVec S_ 1 := (fun x v => Host.reduce IntOp.andi x v reducesTo_S512x4x2048_S_d0_1_2 h_S_) main_v2 main_c
  let main_v4 : FVec F S9x4x256 .f32 := Host.absf main_arg1
  let main_cst_0 : FVec F S_ .f32 := constant S_ .f32 0x7F800000#32
  let main_v5 : FVec F S9x4x256 .f32 := broadcastInDim S9x4x256 ![] bcast_S_S9x4x256 main_cst_0
  let main_v6 : IVec S9x4x256 1 := cmpf .olt main_v4 main_v5
  let main_c_1 : IVec S_ 1 := constantI S_ 1 1#1
  let main_v7 : IVec S_ 1 := (fun x v => Host.reduce IntOp.andi x v reducesTo_S9x4x256_S_d0_1_2 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  main_v13
-- ==== Kernel.lean ====
abbrev S512x4x2048 : Shape := ⟨3, ![512, 4, 2048]⟩
abbrev S9x4x256 : Shape := ⟨3, ![9, 4, 256]⟩
abbrev S1x256 : Shape := ⟨2, ![1, 256]⟩
abbrev S36x256 : Shape := ⟨2, ![36, 256]⟩
abbrev S512x2048x256 : Shape := ⟨3, ![512, 2048, 256]⟩
abbrev S8x4x2048 : Shape := ⟨3, ![8, 4, 2048]⟩
abbrev S8x2048x256 : Shape := ⟨3, ![8, 2048, 256]⟩
abbrev S1x4x2048 : Shape := ⟨3, ![1, 4, 2048]⟩
abbrev S4x2048 : Shape := ⟨2, ![4, 2048]⟩
abbrev S4x4 : Shape := ⟨2, ![4, 4]⟩
abbrev S4x2044 : Shape := ⟨2, ![4, 2044]⟩
abbrev S4x3 : Shape := ⟨2, ![4, 3]⟩
abbrev S4x2045 : Shape := ⟨2, ![4, 2045]⟩
abbrev S4x2 : Shape := ⟨2, ![4, 2]⟩
abbrev S4x2046 : Shape := ⟨2, ![4, 2046]⟩
abbrev S4x1 : Shape := ⟨2, ![4, 1]⟩
abbrev S4x2047 : Shape := ⟨2, ![4, 2047]⟩
abbrev S36x2048 : Shape := ⟨2, ![36, 2048]⟩
abbrev S36x16384 : Shape := ⟨2, ![36, 16384]⟩
abbrev S16384x256 : Shape := ⟨2, ![16384, 256]⟩

abbrev nBuf : Space → Nat
  | .hbm => 5
  | .vmem => 6
  | .smem => 0
  | _ => 0

abbrev bufTy : (tb : Table) → Fin (tcTables nBuf tb) → BufTy
  | .hbm, ⟨0, _⟩ => ⟨S512x4x2048, .f32⟩
  | .hbm, ⟨1, _⟩ => ⟨S9x4x256, .f32⟩
  | .hbm, ⟨2, _⟩ => ⟨S1x256, .f32⟩
  | .hbm, ⟨3, _⟩ => ⟨S36x256, .f32⟩
  | .hbm, ⟨4, _⟩ => ⟨S512x2048x256, .f32⟩
  | .local _ .vmem, ⟨0, _⟩ => ⟨S8x4x2048, .f32⟩
  | .local _ .vmem, ⟨1, _⟩ => ⟨S8x4x2048, .f32⟩
  | .local _ .vmem, ⟨2, _⟩ => ⟨S36x256, .f32⟩
  | .local _ .vmem, ⟨3, _⟩ => ⟨S1x256, .f32⟩
  | .local _ .vmem, ⟨4, _⟩ => ⟨S8x2048x256, .f32⟩
  | .local _ .vmem, ⟨5, _⟩ => ⟨S8x2048x256, .f32⟩
  | _, _ => ⟨S512x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S9x4x256_S36x256 : S9x4x256.ShapeCasts S36x256
  inb_S8x4x2048_S1x4x2048_0_0_0 : ∀ a, (![0, 0, 0] : Fin 3 → Nat) a + S1x4x2048.size a ≤ S8x4x2048.size a
  h_S1x4x2048 : 0 < S1x4x2048.numel
  shapeCasts_S1x4x2048_S4x2048 : S1x4x2048.ShapeCasts S4x2048
  slices_S4x2048_o0_0_S4x2044 : S4x2048.Slices ![0, 0] S4x2044
  concatenates_S4x4_S4x2044_S4x2048_d1 : Shape.Concatenates [S4x4, S4x2044] S4x2048 1
  slices_S4x2048_o0_0_S4x2045 : S4x2048.Slices ![0, 0] S4x2045
  concatenates_S4x3_S4x2045_S4x2048_d1 : Shape.Concatenates [S4x3, S4x2045] S4x2048 1
  slices_S4x2048_o0_0_S4x2046 : S4x2048.Slices ![0, 0] S4x2046
  concatenates_S4x2_S4x2046_S4x2048_d1 : Shape.Concatenates [S4x2, S4x2046] S4x2048 1
  slices_S4x2048_o0_0_S4x2047 : S4x2048.Slices ![0, 0] S4x2047
  concatenates_S4x1_S4x2047_S4x2048_d1 : Shape.Concatenates [S4x1, S4x2047] S4x2048 1
  slices_S4x2048_o0_1_S4x2047 : S4x2048.Slices ![0, 1] S4x2047
  concatenates_S4x2047_S4x1_S4x2048_d1 : Shape.Concatenates [S4x2047, S4x1] S4x2048 1
  slices_S4x2048_o0_2_S4x2046 : S4x2048.Slices ![0, 2] S4x2046
  concatenates_S4x2046_S4x2_S4x2048_d1 : Shape.Concatenates [S4x2046, S4x2] S4x2048 1
  slices_S4x2048_o0_3_S4x2045 : S4x2048.Slices ![0, 3] S4x2045
  concatenates_S4x2045_S4x3_S4x2048_d1 : Shape.Concatenates [S4x2045, S4x3] S4x2048 1
  slices_S4x2048_o0_4_S4x2044 : S4x2048.Slices ![0, 4] S4x2044
  concatenates_S4x2044_S4x4_S4x2048_d1 : Shape.Concatenates [S4x2044, S4x4] S4x2048 1
  concatenates_S4x2048_S4x2048_S4x2048_S4x2048_S4x2048_S4x2048_S4x2048_S4x2048_S4x2048_S36x2048_d0 : Shape.Concatenates [S4x2048, S4x2048, S4x2048, S4x2048, S4x2048, S4x2048, S4x2048, S4x2048, S4x2048] S36x2048 0
  inb_S8x4x2048_S1x4x2048_1_0_0 : ∀ a, (![1, 0, 0] : Fin 3 → Nat) a + S1x4x2048.size a ≤ S8x4x2048.size a
  inb_S8x4x2048_S1x4x2048_2_0_0 : ∀ a, (![2, 0, 0] : Fin 3 → Nat) a + S1x4x2048.size a ≤ S8x4x2048.size a
  inb_S8x4x2048_S1x4x2048_3_0_0 : ∀ a, (![3, 0, 0] : Fin 3 → Nat) a + S1x4x2048.size a ≤ S8x4x2048.size a
  inb_S8x4x2048_S1x4x2048_4_0_0 : ∀ a, (![4, 0, 0] : Fin 3 → Nat) a + S1x4x2048.size a ≤ S8x4x2048.size a
  inb_S8x4x2048_S1x4x2048_5_0_0 : ∀ a, (![5, 0, 0] : Fin 3 → Nat) a + S1x4x2048.size a ≤ S8x4x2048.size a
  inb_S8x4x2048_S1x4x2048_6_0_0 : ∀ a, (![6, 0, 0] : Fin 3 → Nat) a + S1x4x2048.size a ≤ S8x4x2048.size a
  inb_S8x4x2048_S1x4x2048_7_0_0 : ∀ a, (![7, 0, 0] : Fin 3 → Nat) a + S1x4x2048.size a ≤ S8x4x2048.size a
  concatenates_S36x2048_S36x2048_S36x2048_S36x2048_S36x2048_S36x2048_S36x2048_S36x2048_S36x16384_d1 : Shape.Concatenates [S36x2048, S36x2048, S36x2048, S36x2048, S36x2048, S36x2048, S36x2048, S36x2048] S36x16384 1
  inb_S36x256_S36x256_0_0 : ∀ a, (![0, 0] : Fin 2 → Nat) a + S36x256.size a ≤ S36x256.size a
  h_S36x256 : 0 < S36x256.numel
  shapeCasts_S36x256_S36x256 : S36x256.ShapeCasts S36x256
  inb_S1x256_S1x256_0_0 : ∀ a, (![0, 0] : Fin 2 → Nat) a + S1x256.size a ≤ S1x256.size a
  h_S1x256 : 0 < S1x256.numel
  broadcasts_S1x256_S16384x256 : S1x256.Broadcasts S16384x256
  shapeCasts_S16384x256_S8x2048x256 : S16384x256.ShapeCasts S8x2048x256
  inb_S8x2048x256_S8x2048x256_0_0_0 : ∀ a, (![0, 0, 0] : Fin 3 → Nat) a + S8x2048x256.size a ≤ S8x2048x256.size a
  h_S8x2048x256 : 0 < S8x2048x256.numel
  dot_S36x16384_S36x256_S16384x256_0_0_1_1_n_n_wf : DotDims.WF S36x16384 S36x256 S16384x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x2048.size a ≤ S512x4x2048.size a
  hwx0_0 : ∀ i : grid0.Coords, EltTy.bits .f32 = 32 ∨ (Rect.block (s := S512x4x2048) S8x4x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S36x256.size a ≤ S36x256.size a
  hwx0_1 : ∀ i : grid0.Coords, EltTy.bits .f32 = 32 ∨ (Rect.block (s := S36x256) S36x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048x256.size a ≤ S512x2048x256.size a
  hwx0_3 : ∀ i : grid0.Coords, EltTy.bits .f32 = 32 ∨ (Rect.block (s := S512x2048x256) S8x2048x256.size (cc0_transform_3 i) (hinb0_3 i)).WholeWords (EltTy.packing .f32)

variable [Facts₀]

def dot_S36x16384_S36x256_S16384x256_0_0_1_1_n_n : DotDims S36x16384 S36x256 S16384x256 where
  lhsContracting := [0]
  rhsContracting := [0]
  lhsNonContracting := [1]
  rhsNonContracting := [1]
  lhsBatch := []
  rhsBatch := []
  wf := dot_S36x16384_S36x256_S16384x256_0_0_1_1_n_n_wf

abbrev win0_0 : Pipeline.Window sig grid0 :=
  Pipeline.Window.ofSpec (Memref.whole main_arg0) S8x4x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S36x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x4x2048 : Shape := ⟨3, ![512, 4, 2048]⟩
abbrev S9x4x256 : Shape := ⟨3, ![9, 4, 256]⟩
abbrev S1x256 : Shape := ⟨2, ![1, 256]⟩
abbrev S_ : Shape := ⟨0, ![]⟩
abbrev S512x4x2056 : Shape := ⟨3, ![512, 4, 2056]⟩
abbrev S512x4x520 : Shape := ⟨3, ![512, 4, 520]⟩
abbrev S512x1x4x520 : Shape := ⟨4, ![512, 1, 4, 520]⟩
abbrev S512x4x4x520 : Shape := ⟨4, ![512, 4, 4, 520]⟩
abbrev S512x2048x256 : Shape := ⟨3, ![512, 2048, 256]⟩
abbrev S1x1x4x520 : Shape := ⟨4, ![1, 1, 4, 520]⟩
abbrev S1x512x256 : Shape := ⟨3, ![1, 512, 256]⟩
abbrev S4x520 : Shape := ⟨2, ![4, 520]⟩
abbrev S512x256 : Shape := ⟨2, ![512, 256]⟩
abbrev S4x512 : Shape := ⟨2, ![4, 512]⟩
abbrev S1x4x256 : Shape := ⟨3, ![1, 4, 256]⟩
abbrev S4x256 : Shape := ⟨2, ![4, 256]⟩

abbrev nBuf : Space → Nat
  | .hbm => 16
  | .vmem => 6
  | .smem => 0
  | _ => 0

abbrev bufTy : (tb : Table) → Fin (tcTables nBuf tb) → BufTy
  | .hbm, ⟨0, _⟩ => ⟨S512x4x2048, .f32⟩
  | .hbm, ⟨1, _⟩ => ⟨S9x4x256, .f32⟩
  | .hbm, ⟨2, _⟩ => ⟨S1x256, .f32⟩
  | .hbm, ⟨3, _⟩ => ⟨S_, .i32⟩
  | .hbm, ⟨4, _⟩ => ⟨S_, .f32⟩
  | .hbm, ⟨5, _⟩ => ⟨S512x4x2056, .f32⟩
  | .hbm, ⟨6, _⟩ => ⟨S512x4x520, .f32⟩
  | .hbm, ⟨7, _⟩ => ⟨S512x4x520, .f32⟩
  | .hbm, ⟨8, _⟩ => ⟨S512x4x520, .f32⟩
  | .hbm, ⟨9, _⟩ => ⟨S512x4x520, .f32⟩
  | .hbm, ⟨10, _⟩ => ⟨S512x1x4x520, .f32⟩
  | .hbm, ⟨11, _⟩ => ⟨S512x1x4x520, .f32⟩
  | .hbm, ⟨12, _⟩ => ⟨S512x1x4x520, .f32⟩
  | .hbm, ⟨13, _⟩ => ⟨S512x1x4x520, .f32⟩
  | .hbm, ⟨14, _⟩ => ⟨S512x4x4x520, .f32⟩
  | .hbm, ⟨15, _⟩ => ⟨S512x2048x256, .f32⟩
  | .local _ .vmem, ⟨0, _⟩ => ⟨S1x1x4x520, .f32⟩
  | .local _ .vmem, ⟨1, _⟩ => ⟨S1x1x4x520, .f32⟩
  | .local _ .vmem, ⟨2, _⟩ => ⟨S9x4x256, .f32⟩
  | .local _ .vmem, ⟨3, _⟩ => ⟨S1x256, .f32⟩
  | .local _ .vmem, ⟨4, _⟩ => ⟨S1x512x256, .f32⟩
  | .local _ .vmem, ⟨5, _⟩ => ⟨S1x512x256, .f32⟩
  | _, _ => ⟨S512x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![512, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x4x520 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S9x4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S512x4x2048_S512x4x2056_000_000_440 : S512x4x2048.Pads (![0, 0, 4] : Fin 3 → Nat) ![0, 0, 4] ![0, 0, 0] S512x4x2056
  h_S_ : 0 < S_.numel
  slices_S512x4x2056_S512x4x520_0_0_0 : S512x4x2056.Slices ![0, 0, 0] S512x4x520
  slices_S512x4x2056_S512x4x520_0_0_512 : S512x4x2056.Slices ![0, 0, 512] S512x4x520
  slices_S512x4x2056_S512x4x520_0_0_1024 : S512x4x2056.Slices ![0, 0, 1024] S512x4x520
  slices_S512x4x2056_S512x4x520_0_0_1536 : S512x4x2056.Slices ![0, 0, 1536] S512x4x520
  bcast_S512x4x520_S512x1x4x520_0_2_3 : S512x4x520.BroadcastsInDim S512x1x4x520 (![0, 2, 3] : Fin 3 → Fin S512x1x4x520.rank)
  concatenates_S512x1x4x520_S512x1x4x520_S512x1x4x520_S512x1x4x520_S512x4x4x520_d1 : Shape.Concatenates [S512x1x4x520, S512x1x4x520, S512x1x4x520, S512x1x4x520] S512x4x4x520 1
  inb_S1x1x4x520_S1x1x4x520_0_0_0_0 : ∀ a, (![0, 0, 0, 0] : Fin 4 → Nat) a + S1x1x4x520.size a ≤ S1x1x4x520.size a
  h_S1x1x4x520 : 0 < S1x1x4x520.numel
  shapeCasts_S1x1x4x520_S4x520 : S1x1x4x520.ShapeCasts S4x520
  slices_S4x520_o0_0_S4x512 : S4x520.Slices ![0, 0] S4x512
  inb_S9x4x256_S1x4x256_0_0_0 : ∀ a, (![0, 0, 0] : Fin 3 → Nat) a + S1x4x256.size a ≤ S9x4x256.size a
  h_S1x4x256 : 0 < S1x4x256.numel
  shapeCasts_S1x4x256_S4x256 : S1x4x256.ShapeCasts S4x256
  slices_S4x520_o0_1_S4x512 : S4x520.Slices ![0, 1] S4x512
  inb_S9x4x256_S1x4x256_1_0_0 : ∀ a, (![1, 0, 0] : Fin 3 → Nat) a + S1x4x256.size a ≤ S9x4x256.size a
  slices_S4x520_o0_2_S4x512 : S4x520.Slices ![0, 2] S4x512
  inb_S9x4x256_S1x4x256_2_0_0 : ∀ a, (![2, 0, 0] : Fin 3 → Nat) a + S1x4x256.size a ≤ S9x4x256.size a
  slices_S4x520_o0_3_S4x512 : S4x520.Slices ![0, 3] S4x512
  inb_S9x4x256_S1x4x256_3_0_0 : ∀ a, (![3, 0, 0] : Fin 3 → Nat) a + S1x4x256.size a ≤ S9x4x256.size a
  slices_S4x520_o0_4_S4x512 : S4x520.Slices ![0, 4] S4x512
  inb_S9x4x256_S1x4x256_4_0_0 : ∀ a, (![4, 0, 0] : Fin 3 → Nat) a + S1x4x256.size a ≤ S9x4x256.size a
  slices_S4x520_o0_5_S4x512 : S4x520.Slices ![0, 5] S4x512
  inb_S9x4x256_S1x4x256_5_0_0 : ∀ a, (![5, 0, 0] : Fin 3 → Nat) a + S1x4x256.size a ≤ S9x4x256.size a
  slices_S4x520_o0_6_S4x512 : S4x520.Slices ![0, 6] S4x512
  inb_S9x4x256_S1x4x256_6_0_0 : ∀ a, (![6, 0, 0] : Fin 3 → Nat) a + S1x4x256.size a ≤ S9x4x256.size a
  slices_S4x520_o0_7_S4x512 : S4x520.Slices ![0, 7] S4x512
  inb_S9x4x256_S1x4x256_7_0_0 : ∀ a, (![7, 0, 0] : Fin 3 → Nat) a + S1x4x256.size a ≤ S9x4x256.size a
  slices_S4x520_o0_8_S4x512 : S4x520.Slices ![0, 8] S4x512
  inb_S9x4x256_S1x4x256_8_0_0 : ∀ a, (![8, 0, 0] : Fin 3 → Nat) a + S1x4x256.size a ≤ S9x4x256.size a
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S4x512_S4x256_S512x256_0_0_1_1_n_n_wf : DotDims.WF S4x512 S4x256 S512x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4x520.size a ≤ S512x4x4x520.size a
  hwx0_0 : ∀ i : grid0.Coords, EltTy.bits .f32 = 32 ∨ (Rect.block (s := S512x4x4x520) S1x1x4x520.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x4x256.size a ≤ S9x4x256.size a
  hwx0_1 : ∀ i : grid0.Coords, EltTy.bits .f32 = 32 ∨ (Rect.block (s := S9x4x256) S9x4x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S512x2048x256.size a
  hwx0_3 : ∀ i : grid0.Coords, EltTy.bits .f32 = 32 ∨ (Rect.block (s := S512x2048x256) S1x512x256.size (cc0_transform_3 i) (hinb0_3 i)).WholeWords (EltTy.packing .f32)

variable [Facts₀]

def dot_S4x512_S4x256_S512x256_0_0_1_1_n_n : DotDims S4x512 S4x256 S512x256 where
  lhsContracting := [0]
  rhsContracting := [0]
  lhsNonContracting := [1]
  rhsNonContracting := [1]
  lhsBatch := []
  rhsBatch := []
  wf := dot_S4x512_S4x256_S512x256_0_0_1_1_n_n_wf

abbrev win0_0 : Pipeline.Window sig grid0 :=
  Pipeline.Window.ofSpec (Memref.whole main_v9) S1x1x4x520.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x4x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.ConvSpec.lean ====
/-
  The function both programs compute, on the extended reals: a same-padded 1-D convolution with nine taps over four
  channels, a bias, and a clamp at zero.

      conv x w b (n, l, d) = max (Σ_k Σ_c x̃(n, c, l + k) · w(k, c, d) + b(0, d)) 0

  where x̃(n, c, ·) is row (n, c) of x with four zeros in front and four behind, so x̃(n, c, p) = x(n, c, p - 4) for
  4 ≤ p < 2052 and 0 otherwise. Also two ways a sum of thirty-six products is grouped: one sum over the stacked index
  4k + c, and nine four-term sums added one after the other onto zero; on the extended reals addition is associative and
  commutative, so both are the double sum over (k, c).
-/
import Idealize.ShloMosaic.PureOps.Ideal
import Idealize.ShloMosaic.PureOps.Ideal.Laws
import Idealize.ShloMosaic.Lib.ValueIdx

noncomputable section

namespace Cert.ConvSpec

open Idealize.ShloMosaic Idealize.ShloMosaic.ValueIdx

/-- Row `(n, c)` of `x`, padded by four zeros on each side, read at position `l + k`: entry `l + k - 4` of the row when
    that lies inside it, zero otherwise. -/
def tap (x : (⟨3, ![512, 4, 2048]⟩ : Shape).Idx → EReal) (n : Fin 512) (c : Fin 4) (l : Fin 2048) (k : Fin 9) : EReal :=
  if h : 4 ≤ l.val + k.val ∧ l.val + k.val < 2052 then x (ix3 n c ⟨l.val + k.val - 4, by omega⟩) else 0

/-- The convolution, bias and clamp, entry by entry. -/
def conv (x : (⟨3, ![512, 4, 2048]⟩ : Shape).Idx → EReal) (w : (⟨3, ![9, 4, 256]⟩ : Shape).Idx → EReal)
    (b : (⟨2, ![1, 256]⟩ : Shape).Idx → EReal) : (⟨3, ![512, 2048, 256]⟩ : Shape).Idx → EReal := fun i =>
  max ((∑ k : Fin 9, ∑ c : Fin 4, tap x (i 0) c (i 1) k * w (ix3 k c (i 2))) + b (ix2 0 (i 2))) 0

/-- A sum over the stacked index `j = 4k + c` is the double sum over the tap `k` and the channel `c`. -/
theorem sum_stacked (f : Fin 36 → EReal) :
    ∑ j : Fin 36, f j = ∑ k : Fin 9, ∑ c : Fin 4, f ⟨4 * k.val + c.val, by omega⟩ := by
  rw [← Fintype.sum_prod_type']
  refine (Fintype.sum_equiv (finProdFinEquiv (m := 9) (n := 4)) _ _ (fun p => ?_)).symm
  congr 1
  apply Fin.ext
  simp only [finProdFinEquiv_apply_val]
  omega

/-- Nine terms added one after the other onto zero are their sum. -/
theorem sum_chain (a : Fin 9 → EReal) :
    (((((((((0 : EReal) + a 0) + a 1) + a 2) + a 3) + a 4) + a 5) + a 6) + a 7) + a 8 = ∑ k : Fin 9, a k := by
  simp only [Fin.sum_univ_succ, Fin.sum_univ_zero, zero_add, add_zero]
  simp only [add_assoc]
  rfl

end Cert.ConvSpec

end
-- ==== Proof.KernelStack.lean ====
/-
  One batch row of the kernel's input, seen as a [4, 2048] matrix (channel, position), and the nine copies of it the
  kernel builds: copy k is the row moved by k - 4 positions, with zeros where the move leaves the row — copy k at
  position l is the row at l + k - 4 when that lies inside the row, zero otherwise. The nine copies are stacked along the
  channel axis into a [36, 2048] matrix whose row 4k + c is copy k of channel c. The program builds this stack eight
  times, once per batch row of a block, each time cutting the same term differently into named pieces; all eight
  are this one function of the row.
-/
import proofs.«167356_g2000609548398270_pallasbulk_1038_18_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ConvValue

open Cert.KernelIdeal Cert.KernelIdeal.Gen Idealize.ShloMosaic Idealize.ShloMosaic.ValueIdx

/-- The zero every copy is filled with. -/
abbrev zero32 : Ideal .f32 := Scalar.ofBits .f32 0x00000000#32

/-- A batch row [1, 4, 2048] as a matrix [4, 2048]. -/
def flat (row : Vec Ideal S1x4x2048 .f32) : FVec Ideal S4x2048 .f32 :=
  shapeCast S4x2048 row shapeCasts_S1x4x2048_S4x2048

/-- Copy 0: four zeros, then the first 2044 positions. -/
def tap0 (row : Vec Ideal S1x4x2048 .f32) : FVec Ideal S4x2048 .f32 :=
  concatenate S4x2048 1 [⟨S4x4, broadcast S4x4 zero32⟩, ⟨S4x2044, extractStridedSlice S4x2044 ![0, 0] (flat row) slices_S4x2048_o0_0_S4x2044⟩] concatenates_S4x4_S4x2044_S4x2048_d1
/-- Copy 1: three zeros, then the first 2045 positions. -/
def tap1 (row : Vec Ideal S1x4x2048 .f32) : FVec Ideal S4x2048 .f32 :=
  concatenate S4x2048 1 [⟨S4x3, broadcast S4x3 zero32⟩, ⟨S4x2045, extractStridedSlice S4x2045 ![0, 0] (flat row) slices_S4x2048_o0_0_S4x2045⟩] concatenates_S4x3_S4x2045_S4x2048_d1
/-- Copy 2: two zeros, then the first 2046 positions. -/
def tap2 (row : Vec Ideal S1x4x2048 .f32) : FVec Ideal S4x2048 .f32 :=
  concatenate S4x2048 1 [⟨S4x2, broadcast S4x2 zero32⟩, ⟨S4x2046, extractStridedSlice S4x2046 ![0, 0] (flat row) slices_S4x2048_o0_0_S4x2046⟩] concatenates_S4x2_S4x2046_S4x2048_d1
/-- Copy 3: one zero, then the first 2047 positions. -/
def tap3 (row : Vec Ideal S1x4x2048 .f32) : FVec Ideal S4x2048 .f32 :=
  concatenate S4x2048 1 [⟨S4x1, broadcast S4x1 zero32⟩, ⟨S4x2047, extractStridedSlice S4x2047 ![0, 0] (flat row) slices_S4x2048_o0_0_S4x2047⟩] concatenates_S4x1_S4x2047_S4x2048_d1
/-- Copy 4: the row itself. -/
def tap4 (row : Vec Ideal S1x4x2048 .f32) : FVec Ideal S4x2048 .f32 := flat row
/-- Copy 5: the last 2047 positions, then one zero. -/
def tap5 (row : Vec Ideal S1x4x2048 .f32) : FVec Ideal S4x2048 .f32 :=
  concatenate S4x2048 1 [⟨S4x2047, extractStridedSlice S4x2047 ![0, 1] (flat row) slices_S4x2048_o0_1_S4x2047⟩, ⟨S4x1, broadcast S4x1 zero32⟩] concatenates_S4x2047_S4x1_S4x2048_d1
/-- Copy 6: the last 2046 positions, then two zeros. -/
def tap6 (row : Vec Ideal S1x4x2048 .f32) : FVec Ideal S4x2048 .f32 :=
  concatenate S4x2048 1 [⟨S4x2046, extractStridedSlice S4x2046 ![0, 2] (flat row) slices_S4x2048_o0_2_S4x2046⟩, ⟨S4x2, broadcast S4x2 zero32⟩] concatenates_S4x2046_S4x2_S4x2048_d1
/-- Copy 7: the last 2045 positions, then three zeros. -/
def tap7 (row : Vec Ideal S1x4x2048 .f32) : FVec Ideal S4x2048 .f32 :=
  concatenate S4x2048 1 [⟨S4x2045, extractStridedSlice S4x2045 ![0, 3] (flat row) slices_S4x2048_o0_3_S4x2045⟩, ⟨S4x3, broadcast S4x3 zero32⟩] concatenates_S4x2045_S4x3_S4x2048_d1
/-- Copy 8: the last 2044 positions, then four zeros. -/
def tap8 (row : Vec Ideal S1x4x2048 .f32) : FVec Ideal S4x2048 .f32 :=
  concatenate S4x2048 1 [⟨S4x2044, extractStridedSlice S4x2044 ![0, 4] (flat row) slices_S4x2048_o0_4_S4x2044⟩, ⟨S4x4, broadcast S4x4 zero32⟩] concatenates_S4x2044_S4x4_S4x2048_d1

/-- The nine copies stacked along the channel axis: row 4k + c is copy k of channel c. -/
def tapStack (row : Vec Ideal S1x4x2048 .f32) : FVec Ideal S36x2048 .f32 :=
  concatenate S36x2048 0 [⟨S4x2048, tap0 row⟩, ⟨S4x2048, tap1 row⟩, ⟨S4x2048, tap2 row⟩, ⟨S4x2048, tap3 row⟩, ⟨S4x2048, tap4 row⟩,
    ⟨S4x2048, tap5 row⟩, ⟨S4x2048, tap6 row⟩, ⟨S4x2048, tap7 row⟩, ⟨S4x2048, tap8 row⟩]
    concatenates_S4x2048_S4x2048_S4x2048_S4x2048_S4x2048_S4x2048_S4x2048_S4x2048_S4x2048_S36x2048_d0

/-! ## The program's eight stacks are this one -/

theorem stack0_eq (r : Vec Ideal S1x4x2048 .f32) :
    k0_pay10 (F := Ideal) (k0_pay3 r) (k0_pay4 r) (k0_pay5 r) (k0_pay6 r) (k0_pay7 r) (k0_pay8 r) (k0_pay9 r) r r = tapStack r := rfl
theorem stack1_eq (r : Vec Ideal S1x4x2048 .f32) :
    k0_pay16 (F := Ideal) (k0_pay11 r) (k0_pay12 r) (k0_pay13 r) (k0_pay14 r) (k0_pay15 r) r r r r = tapStack r := rfl
theorem stack2_eq (r : Vec Ideal S1x4x2048 .f32) :
    k0_pay20 (F := Ideal) (k0_pay17 r) (k0_pay18 r) (k0_pay19 r) r r r r r r = tapStack r := rfl
theorem stack3_eq (r : Vec Ideal S1x4x2048 .f32) :
    k0_pay30 (F := Ideal) (k0_pay22 (k0_pay21 r)) (k0_pay23 r) (k0_pay24 r) (k0_pay25 r) (k0_pay26 r) (k0_pay27 r) (k0_pay28 r) (k0_pay29 r) r = tapStack r := rfl
theorem stack4_eq (r : Vec Ideal S1x4x2048 .f32) :
    k0_pay37 (F := Ideal) (k0_pay31 r) (k0_pay32 r) (k0_pay33 r) (k0_pay34 r) (k0_pay35 r) (k0_pay36 r) r r r = tapStack r := rfl
theorem stack5_eq (r : Vec Ideal S1x4x2048 .f32) :
    k0_pay41 (F := Ideal) (k0_pay38 r) (k0_pay39 r) (k0_pay40 r) r r r r r r = tapStack r := rfl
theorem stack6_eq (r : Vec Ideal S1x4x2048 .f32) :
    k0_pay50 (F := Ideal) (k0_pay42 r) (k0_pay43 r) (k0_pay44 r) (k0_pay45 r) (k0_pay46 r) (k0_pay47 r) (k0_pay48 r) (k0_pay49 r) r = tapStack r := rfl
theorem stack7_eq (r : Vec Ideal S1x4x2048 .f32) :
    k0_pay1 (F := Ideal) (k0_pay51 r) (k0_pay52 r) (k0_pay53 r) (k0_pay54 r) (k0_pay55 r) (k0_pay56 r) r r r = tapStack r := rfl

end Cert.KernelIdeal.ConvValue

end
-- ==== Proof.KernelTaps.lean ====
/-
  The stack of nine moved copies of a batch row, read at an index: row 4k + c, position l of the stack is the row's
  channel c at position l + k - 4 when that lies inside the row, and zero otherwise.
-/
import proofs.«167356_g2000609548398270_pallasbulk_1038_18_alg».proof.Proof.KernelStack
import Idealize.ShloMosaic.Lib.ValueLayout

noncomputable section

namespace Cert.KernelIdeal.ConvValue

open Cert.KernelIdeal Cert.KernelIdeal.Gen Idealize.ShloMosaic Idealize.ShloMosaic.ValueIdx

/-- A batch row padded by four zeros on each side, read at position l + k. -/
def rowTap (row : S1x4x2048.Idx → EReal) (c : Fin 4) (l : Fin 2048) (k : Fin 9) : EReal :=
  if h : 4 ≤ l.val + k.val ∧ l.val + k.val < 2052 then row (ix3 (0 : Fin 1) c ⟨l.val + k.val - 4, by omega⟩) else 0

theorem flat_apply (row : Vec Ideal S1x4x2048 .f32) (c : Fin 4) (l : Fin 2048) :
    flat row (ix2 c l) = row (ix3 (0 : Fin 1) c l) :=
  shapeCast_1ab_ab_apply row _ c l

/-- z zeros followed by the row's first n positions is the row moved right by z = 4 - k. -/
theorem fillLeft_apply (k : Fin 9) (z n : Nat) (hk : k.val + z = 4) (hzn : z + n = 2048) (row : Vec Ideal S1x4x2048 .f32)
    (hs : S4x2048.Slices ![0, 0] ⟨2, ![4, n]⟩) (hc : Shape.Concatenates [⟨2, ![4, z]⟩, ⟨2, ![4, n]⟩] S4x2048 1)
    (c : Fin 4) (l : Fin 2048) :
    concatenate S4x2048 1 [⟨⟨2, ![4, z]⟩, broadcast ⟨2, ![4, z]⟩ zero32⟩,
      ⟨⟨2, ![4, n]⟩, extractStridedSlice ⟨2, ![4, n]⟩ ![0, 0] (flat row) hs⟩] hc (ix2 c l) = rowTap row c l k := by
  unfold rowTap
  by_cases h : 4 ≤ l.val + k.val ∧ l.val + k.val < 2052
  · rw [dif_pos h]
    refine (concatenate_pair_apply_right 1 _ _ hc (ix2 c l) rfl rfl (ix2 c (⟨l.val + k.val - 4, by omega⟩ : Fin n)) (fun b hb => ?_) ?_).trans ?_
    · match b with
      | ⟨0, _⟩ => rfl
      | ⟨1, _⟩ => exact absurd rfl hb
    · show (l.val + k.val - 4) + z = l.val
      omega
    · refine (extractStridedSlice_apply _ _ hs _ (ix2 c (⟨l.val + k.val - 4, by omega⟩ : Fin 2048)) (fun a => ?_)).trans (flat_apply row c _)
      match a with
      | ⟨0, _⟩ => show c.val = 0 + c.val; omega
      | ⟨1, _⟩ => show l.val + k.val - 4 = 0 + (l.val + k.val - 4); omega
  · rw [dif_neg h]
    refine (concatenate_pair_apply_left 1 _ _ hc (ix2 c l) rfl (ix2 c (⟨l.val, by omega⟩ : Fin z)) (fun b => ?_)).trans ?_
    · match b with
      | ⟨0, _⟩ => rfl
      | ⟨1, _⟩ => rfl
    · exact Ideal.ofBits_zero_f32

/-- The row's last n positions followed by o zeros is the row moved left by o = k - 4. -/
theorem fillRight_apply (k : Fin 9) (o n : Nat) (hk : k.val = 4 + o) (hon : n + o = 2048) (row : Vec Ideal S1x4x2048 .f32)
    (hs : S4x2048.Slices ![0, o] ⟨2, ![4, n]⟩) (hc : Shape.Concatenates [⟨2, ![4, n]⟩, ⟨2, ![4, o]⟩] S4x2048 1)
    (c : Fin 4) (l : Fin 2048) :
    concatenate S4x2048 1 [⟨⟨2, ![4, n]⟩, extractStridedSlice ⟨2, ![4, n]⟩ ![0, o] (flat row) hs⟩,
      ⟨⟨2, ![4, o]⟩, broadcast ⟨2, ![4, o]⟩ zero32⟩] hc (ix2 c l) = rowTap row c l k := by
  unfold rowTap
  by_cases h : 4 ≤ l.val + k.val ∧ l.val + k.val < 2052
  · rw [dif_pos h]
    refine (concatenate_pair_apply_left 1 _ _ hc (ix2 c l) rfl (ix2 c (⟨l.val, by omega⟩ : Fin n)) (fun b => ?_)).trans ?_
    · match b with
      | ⟨0, _⟩ => rfl
      | ⟨1, _⟩ => rfl
    · refine (extractStridedSlice_apply _ _ hs _ (ix2 c (⟨l.val + k.val - 4, by omega⟩ : Fin 2048)) (fun a => ?_)).trans (flat_apply row c _)
      match a with
      | ⟨0, _⟩ => show c.val = 0 + c.val; omega
      | ⟨1, _⟩ => show l.val + k.val - 4 = o + l.val; omega
  · rw [dif_neg h]
    refine (concatenate_pair_apply_right 1 _ _ hc (ix2 c l) rfl rfl (ix2 c (⟨l.val - n, by omega⟩ : Fin o)) (fun b hb => ?_) ?_).trans ?_
    · match b with
      | ⟨0, _⟩ => rfl
      | ⟨1, _⟩ => exact absurd rfl hb
    · show (l.val - n) + n = l.val
      omega
    · exact Ideal.ofBits_zero_f32

/-! ## The nine copies -/

theorem tap0_apply (row : Vec Ideal S1x4x2048 .f32) (c : Fin 4) (l : Fin 2048) : tap0 row (ix2 c l) = rowTap row c l 0 :=
  fillLeft_apply 0 4 2044 rfl rfl row _ _ c l
theorem tap1_apply (row : Vec Ideal S1x4x2048 .f32) (c : Fin 4) (l : Fin 2048) : tap1 row (ix2 c l) = rowTap row c l 1 :=
  fillLeft_apply 1 3 2045 rfl rfl row _ _ c l
theorem tap2_apply (row : Vec Ideal S1x4x2048 .f32) (c : Fin 4) (l : Fin 2048) : tap2 row (ix2 c l) = rowTap row c l 2 :=
  fillLeft_apply 2 2 2046 rfl rfl row _ _ c l
theorem tap3_apply (row : Vec Ideal S1x4x2048 .f32) (c : Fin 4) (l : Fin 2048) : tap3 row (ix2 c l) = rowTap row c l 3 :=
  fillLeft_apply 3 1 2047 rfl rfl row _ _ c l
theorem tap4_apply (row : Vec Ideal S1x4x2048 .f32) (c : Fin 4) (l : Fin 2048) : tap4 row (ix2 c l) = rowTap row c l 4 := by
  unfold rowTap
  rw [dif_pos ⟨by show 4 ≤ l.val + 4; omega, by show l.val + 4 < 2052; omega⟩]
  exact flat_apply row c l
theorem tap5_apply (row : Vec Ideal S1x4x2048 .f32) (c : Fin 4) (l : Fin 2048) : tap5 row (ix2 c l) = rowTap row c l 5 :=
  fillRight_apply 5 1 2047 rfl rfl row _ _ c l
theorem tap6_apply (row : Vec Ideal S1x4x2048 .f32) (c : Fin 4) (l : Fin 2048) : tap6 row (ix2 c l) = rowTap row c l 6 :=
  fillRight_apply 6 2 2046 rfl rfl row _ _ c l
theorem tap7_apply (row : Vec Ideal S1x4x2048 .f32) (c : Fin 4) (l : Fin 2048) : tap7 row (ix2 c l) = rowTap row c l 7 :=
  fillRight_apply 7 3 2045 rfl rfl row _ _ c l
theorem tap8_apply (row : Vec Ideal S1x4x2048 .f32) (c : Fin 4) (l : Fin 2048) : tap8 row (ix2 c l) = rowTap row c l 8 :=
  fillRight_apply 8 4 2044 rfl rfl row _ _ c l

end Cert.KernelIdeal.ConvValue

end
-- ==== Proof.KernelPayload.lean ====
/-
  What one grid point computes from its blocks, entry by entry. The eight stacks (one per batch row g of the block) sit
  side by side in a [36, 16384] matrix, column 2048 g + l; one matrix product contracts its 36 rows against the 36 rows
  of the weights, giving at (2048 g + l, d) the sum over the stacked index j = 4k + c of stack_g(j, l) · w(j, d); the bias
  is added along every row, the result is clamped below at zero, and row 2048 g + l becomes entry (g, l) of the block.
-/
import proofs.«167356_g2000609548398270_pallasbulk_1038_18_alg».proof.Proof.KernelTaps
import proofs.«167356_g2000609548398270_pallasbulk_1038_18_alg».proof.Proof.ConvSpec

noncomputable section

namespace Cert.KernelIdeal.ConvValue

open Cert.KernelIdeal Cert.KernelIdeal.Gen Idealize.ShloMosaic Idealize.ShloMosaic.ValueIdx

/-! ## The stack of nine copies at row 4k + c -/

theorem tapStack_apply (row : Vec Ideal S1x4x2048 .f32) (k : Fin 9) (c : Fin 4) (l : Fin 2048) :
    tapStack row (ix2 (⟨4 * k.val + c.val, by omega⟩ : Fin 36) l) = rowTap row c l k := by
  unfold tapStack
  have piece : ∀ (K : Nat) (hK : K < 9) (x₁ : FVec Ideal S4x2048 .f32) (xs : List ((s : Shape) × (s.Idx → Ideal .f32)))
      (h : Shape.Concatenates (xs.map (·.1)) S36x2048 0) (hl : K < xs.length) (hx : xs[K] = ⟨S4x2048, x₁⟩)
      (hpre : (((xs.take K).map (·.1)).map fun s => if h : s.rank = S36x2048.rank then s.size ((0 : Fin S36x2048.rank).cast h.symm) else 0).sum = 4 * K),
      concatenate S36x2048 0 xs h (ix2 (⟨4 * K + c.val, by omega⟩ : Fin 36) l) = x₁ (ix2 c l) := by
    intro K hK x₁ xs h hl hx hpre
    refine concatenate_apply_piece 0 xs h _ K hl S4x2048 x₁ hx rfl (4 * K) hpre (ix2 c l) (fun b hb => ?_) ?_
    · match b with
      | ⟨0, _⟩ => exact absurd rfl hb
      | ⟨1, _⟩ => rfl
    · rfl
  obtain ⟨k, hk⟩ := k
  match k, hk with
  | 0, hk => exact (piece 0 hk (tap0 row) _ _ (by exact hk) (by rfl) (by rfl)).trans (tap0_apply row c l)
  | 1, hk => exact (piece 1 hk (tap1 row) _ _ (by exact hk) (by rfl) (by rfl)).trans (tap1_apply row c l)
  | 2, hk => exact (piece 2 hk (tap2 row) _ _ (by exact hk) (by rfl) (by rfl)).trans (tap2_apply row c l)
  | 3, hk => exact (piece 3 hk (tap3 row) _ _ (by exact hk) (by rfl) (by rfl)).trans (tap3_apply row c l)
  | 4, hk => exact (piece 4 hk (tap4 row) _ _ (by exact hk) (by rfl) (by rfl)).trans (tap4_apply row c l)
  | 5, hk => exact (piece 5 hk (tap5 row) _ _ (by exact hk) (by rfl) (by rfl)).trans (tap5_apply row c l)
  | 6, hk => exact (piece 6 hk (tap6 row) _ _ (by exact hk) (by rfl) (by rfl)).trans (tap6_apply row c l)
  | 7, hk => exact (piece 7 hk (tap7 row) _ _ (by exact hk) (by rfl) (by rfl)).trans (tap7_apply row c l)
  | 8, hk => exact (piece 8 hk (tap8 row) _ _ (by exact hk) (by rfl) (by rfl)).trans (tap8_apply row c l)
  | k + 9, hk => exact absurd hk (by omega)

/-! ## A block's batch row -/

/-- The rectangle of batch row g inside a block of eight. -/
def rowRect (g : Fin 8) : Rect S8x4x2048 :=
  Rect.unit (s := S8x4x2048) ![g.val, 0, 0] S1x4x2048.size (fun a => by
    match a with
    | ⟨0, _⟩ => show g.val + 1 ≤ 8; omega
    | ⟨1, _⟩ => show 0 + 4 ≤ 4; omega
    | ⟨2, _⟩ => show 0 + 2048 ≤ 2048; omega)

/-- Batch row g of a block. -/
def blockRow (x0 : Vec Ideal S8x4x2048 .f32) (g : Fin 8) : Vec Ideal S1x4x2048 .f32 := View.ld x0 (rowRect g)

theorem blockRow_apply (x0 : Vec Ideal S8x4x2048 .f32) (g : Fin 8) (c : Fin 4) (l : Fin 2048) :
    blockRow x0 g (ix3 (0 : Fin 1) c l) = x0 (ix3 g c l) := by
  show x0 ((rowRect g).idx (ix3 (0 : Fin 1) c l)) = _
  congr 1
  funext a; apply Fin.ext
  match a with
  | ⟨0, _⟩ => show g.val + 1 * 0 = g.val; omega
  | ⟨1, _⟩ => show 0 + 1 * c.val = c.val; omega
  | ⟨2, _⟩ => show 0 + 1 * l.val = l.val; omega

/-! ## The eight stacks side by side -/

theorem catCols_apply (v : Fin 8 → FVec Ideal S36x2048 .f32) (g : Fin 8) (j : Fin 36) (l : Fin 2048) :
    concatenate S36x16384 1 [⟨S36x2048, v 0⟩, ⟨S36x2048, v 1⟩, ⟨S36x2048, v 2⟩, ⟨S36x2048, v 3⟩, ⟨S36x2048, v 4⟩,
        ⟨S36x2048, v 5⟩, ⟨S36x2048, v 6⟩, ⟨S36x2048, v 7⟩]
      concatenates_S36x2048_S36x2048_S36x2048_S36x2048_S36x2048_S36x2048_S36x2048_S36x2048_S36x16384_d1
      (ix2 j (⟨2048 * g.val + l.val, by omega⟩ : Fin 16384)) = v g (ix2 j l) :=
  concatenate_ofFn_apply (t := S36x16384) (s₁ := S36x2048) 1 v
    concatenates_S36x2048_S36x2048_S36x2048_S36x2048_S36x2048_S36x2048_S36x2048_S36x2048_S36x16384_d1 rfl 2048 rfl _ g
    (by show (2048 * g.val + l.val) / 2048 = g.val; omega) (ix2 j l)
    (by show l.val = (2048 * g.val + l.val) % 2048; omega)
    (fun b hb => by
      match b with
      | ⟨0, _⟩ => rfl
      | ⟨1, _⟩ => exact absurd rfl hb)

/-! ## The matrix product's operand indices -/

/-- The product's dimension record: it contracts axis 0 of both operands. -/
abbrev dot36 : DotDims S36x16384 S36x256 S16384x256 := dot_S36x16384_S36x256_S16384x256_0_0_1_1_n_n

theorem lhsIdx_stack (p : Fin 16384) (d : Fin 256) (j : Fin 36) :
    dot36.lhsIdx (ix2 p d) ((contrEquiv1 dot36 36 rfl rfl).symm j) = ix2 j p := by
  funext a; apply Fin.ext
  match a with
  | ⟨0, _⟩ => exact (dot36.lhsIdx_val_of_single (cl := 0) rfl _ _).trans (contrEquiv1_symm_val dot36 36 rfl rfl j)
  | ⟨1, _⟩ => rfl

theorem rhsIdx_stack (p : Fin 16384) (d : Fin 256) (j : Fin 36) :
    dot36.rhsIdx (ix2 p d) ((contrEquiv1 dot36 36 rfl rfl).symm j) = ix2 j d := by
  funext a; apply Fin.ext
  match a with
  | ⟨0, _⟩ => exact (dot36.rhsIdx_val_of_single (cr := 0) rfl _ _).trans (contrEquiv1_symm_val dot36 36 rfl rfl j)
  | ⟨1, _⟩ => rfl

/-! ## The block's result at an index -/

theorem pay_apply (v : Fin 8 → FVec Ideal S36x2048 .f32) (W : Vec Ideal S36x256 .f32) (B : Vec Ideal S1x256 .f32)
    (g : Fin 8) (l : Fin 2048) (d : Fin 256) :
    k0_pay2 (F := Ideal) (v 0) (v 1) (v 2) (v 3) (v 4) (v 5) (v 6) (v 7) W B (ix3 g l d)
      = max ((∑ j : Fin 36, v g (ix2 j l) * W (ix2 j d)) + B (ix2 (0 : Fin 1) d)) 0 := by
  unfold k0_pay2
  refine (shapeCast_apply _ shapeCasts_S16384x256_S8x2048x256 (ix3 g l d) (ix2 (⟨2048 * g.val + l.val, by omega⟩ : Fin 16384) d) ?_).trans ?_
  · rw [Shape.rowMajor_val_two, Shape.rowMajor_val_three]
    show (2048 * g.val + l.val) * 256 + d.val = (g.val * 2048 + l.val) * 256 + d.val
    omega
  · refine congrArg₂ max (congrArg₂ (· + ·) ?_ (broadcastTo_1b_ab_apply B _ _ d)) Ideal.ofBits_zero_f32
    refine (Ideal.matmul_constant_zero_apply dot36 none _ _ _).trans ?_
    refine ((Equiv.sum_comp (contrEquiv1 dot36 36 rfl rfl).symm _).symm.trans ?_)
    refine Finset.sum_congr rfl fun j _ => ?_
    rw [lhsIdx_stack, rhsIdx_stack]
    refine congrArg₂ (· * ·) (catCols_apply v g j l) ?_
    exact shapeCast_apply W _ (ix2 j d) (ix2 j d) rfl

end Cert.KernelIdeal.ConvValue

end
-- ==== Proof.KernelBlock.lean ====
/-
  One grid point's block of the output, as a function of the point's three input blocks, entry by entry: the clamp of the
  double sum over the tap k and the channel c of the padded batch row g at position l + k times the weight row 4k + c,
  plus the bias.
-/
import proofs.«167356_g2000609548398270_pallasbulk_1038_18_alg».proof.Proof.KernelPayload
import proofs.«167356_g2000609548398270_pallasbulk_1038_18_alg».proof.Proof.Gen.KernelIdeal.Frame

noncomputable section

namespace Cert.KernelIdeal.ConvValue

open Cert.KernelIdeal Cert.KernelIdeal.Gen Idealize.ShloMosaic Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output block: the product, bias and clamp of the eight rows' stacks. -/
theorem out_eq (x0 : Vec Ideal S8x4x2048 .f32) (x1 : Vec Ideal S36x256 .f32) (x2 : Vec Ideal S1x256 .f32) :
    out0_3 (F := Ideal) x0 x1 x2 = k0_pay2 (F := Ideal) (tapStack (blockRow x0 0)) (tapStack (blockRow x0 1)) (tapStack (blockRow x0 2))
      (tapStack (blockRow x0 3)) (tapStack (blockRow x0 4)) (tapStack (blockRow x0 5)) (tapStack (blockRow x0 6))
      (tapStack (blockRow x0 7)) x1 x2 := by
  unfold out0_3
  rw [View.canon_unit_zero hz3]
  rw [View.ld_unit_zero (S := S36x256) hz2 _ x1, View.ld_unit_zero (S := S1x256) hz2 _ x2]
  rfl

/-- The output block at batch row g, position l, feature d. -/
theorem out_apply (x0 : Vec Ideal S8x4x2048 .f32) (x1 : Vec Ideal S36x256 .f32) (x2 : Vec Ideal S1x256 .f32)
    (g : Fin 8) (l : Fin 2048) (d : Fin 256) :
    out0_3 (F := Ideal) x0 x1 x2 (ix3 g l d)
      = max ((∑ k : Fin 9, ∑ c : Fin 4, rowTap (blockRow x0 g) c l k * x1 (ix2 (⟨4 * k.val + c.val, by omega⟩ : Fin 36) d))
          + x2 (ix2 (0 : Fin 1) d)) 0 := by
  rw [out_eq]
  refine (pay_apply (fun g => tapStack (blockRow x0 g)) x1 x2 g l d).trans ?_
  refine congrArg (fun s => max (s + x2 (ix2 (0 : Fin 1) d)) 0) ?_
  refine (Cert.ConvSpec.sum_stacked _).trans ?_
  refine Finset.sum_congr rfl fun k _ => Finset.sum_congr rfl fun c _ => ?_
  exact congrArg (· * x1 (ix2 (⟨4 * k.val + c.val, by omega⟩ : Fin 36) d)) (tapStack_apply (blockRow x0 g) k c l)

end Cert.KernelIdeal.ConvValue

end
-- ==== Proof.KernelRun.lean ====
/-
  From blocks to the array. Grid point t reads batches 8t … 8t + 7 of the input, all 36 rows of the reshaped weights
  (row 4k + c of the reshape is w(k, c, ·)) and the bias, and writes batches 8t … 8t + 7 of the output; what it writes
  is the same-padded nine-tap convolution with bias and clamp read through that block. The 64 blocks cover the output
  array, so the array ends holding the convolution, and the three arguments are unchanged.
-/
import proofs.«167356_g2000609548398270_pallasbulk_1038_18_alg».proof.Proof.KernelBlock
import proofs.«167356_g2000609548398270_pallasbulk_1038_18_alg».proof.Proof.Gen.KernelIdeal.Value
import Idealize.ShloMosaic.Lib.Tactic

noncomputable section

namespace Cert.KernelIdeal.ConvValue

open Cert.KernelIdeal Cert.KernelIdeal.Gen Idealize.ShloMosaic Idealize.ShloMosaic.TcCoe Idealize.SL.Sem
open Idealize.ShloMosaic.ValueIdx
open Idealize.ShloMosaic.Pipeline (Dat)

/-! ## One point's block is a block of the convolution -/

/-- If the input block is batches 8q … 8q + 7 of X, the weight block the reshape of W and the bias block B, then the
    output block at y is the convolution at batch 8q + y₀, position y₁, feature y₂. -/
theorem point_eq (X : S512x4x2048.Idx → EReal) (W : S9x4x256.Idx → EReal) (B : S1x256.Idx → EReal)
    (x0 : Vec Ideal S8x4x2048 .f32) (x1 : Vec Ideal S36x256 .f32) (x2 : Vec Ideal S1x256 .f32) (q : Nat)
    (h0 : ∀ (g : Fin 8) (c : Fin 4) (l : Fin 2048) (n : Fin 512), n.val = 8 * q + g.val → x0 (ix3 g c l) = X (ix3 n c l))
    (h1 : ∀ (k : Fin 9) (c : Fin 4) (d : Fin 256), x1 (ix2 (⟨4 * k.val + c.val, by omega⟩ : Fin 36) d) = W (ix3 k c d))
    (h2 : ∀ d : Fin 256, x2 (ix2 (0 : Fin 1) d) = B (ix2 (0 : Fin 1) d))
    (y : S8x2048x256.Idx) (i : S512x2048x256.Idx)
    (hi0 : (i 0).val = 8 * q + (y 0).val) (hi1 : (i 1).val = (y 1).val) (hi2 : (i 2).val = (y 2).val) :
    out0_3 (F := Ideal) x0 x1 x2 y = Cert.ConvSpec.conv X W B i := by
  obtain ⟨g, l, d, rfl⟩ : ∃ (g : Fin 8) (l : Fin 2048) (d : Fin 256), y = ix3 g l d := ⟨y 0, y 1, y 2, eq_ix3 y⟩
  obtain ⟨n, l', d', rfl⟩ : ∃ (n : Fin 512) (l' : Fin 2048) (d' : Fin 256), i = ix3 n l' d' := ⟨i 0, i 1, i 2, eq_ix3 i⟩
  have hn : n.val = 8 * q + g.val := hi0
  obtain rfl : l' = l := Fin.ext hi1
  obtain rfl : d' = d := Fin.ext hi2
  rw [out_apply]
  unfold Cert.ConvSpec.conv
  show max ((∑ k : Fin 9, ∑ c : Fin 4, rowTap (blockRow x0 g) c l' k * x1 (ix2 (⟨4 * k.val + c.val, by omega⟩ : Fin 36) d')) + x2 (ix2 (0 : Fin 1) d')) 0
    = max ((∑ k : Fin 9, ∑ c : Fin 4, Cert.ConvSpec.tap X n c l' k * W (ix3 k c d')) + B (ix2 (0 : Fin 1) d')) 0
  rw [h2 d']
  refine congrArg (fun s => max (s + B (ix2 (0 : Fin 1) d')) 0) ?_
  refine Finset.sum_congr rfl fun k _ => Finset.sum_congr rfl fun c _ => ?_
  rw [h1 k c d']
  refine congrArg (· * W (ix3 k c d')) ?_
  unfold rowTap Cert.ConvSpec.tap
  by_cases h : 4 ≤ l'.val + k.val ∧ l'.val + k.val < 2052
  · rw [dif_pos h, dif_pos h]
    exact (blockRow_apply x0 g c _).trans (h0 g c _ n hn)
  · rw [dif_neg h, dif_neg h]

/-! ## The blocks a point reads, and the reshaped weights -/

variable (m : (ℓ : Loc nD τ sig) → Buf (Elt Ideal) ℓ) (ρ : Dev nD → PrngReg)

/-- The printed index maps, decided over the grid: the input and the output move one block of eight batches per point,
    the weights and the bias stay. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The input block at point t is batches 8t … 8t + 7 of the input. -/
theorem iblk0_apply (c : Dev nD) (t : Fin cfg0.N) (x : S8x4x2048.Idx) (k : S512x4x2048.Idx)
    (hk0 : (k 0).val = 8 * t.val + (x 0).val) (hk1 : (k 1).val = (x 1).val) (hk2 : (k 2).val = (x 2).val) :
    (iblk m c 0 t : Vec Ideal S8x4x2048 .f32) x = (m ((c : Thread nD τ).loc main_arg0) : S512x4x2048.Idx → Elt Ideal .f32) k := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 8 + 1 * (x 0).val = (k 0).val; rw [e0, hk0]; omega
  | ⟨1, _⟩ => show win0_0.index t (1 : Fin 3) * 4 + 1 * (x 1).val = (k 1).val; rw [e1, hk1]; omega
  | ⟨2, _⟩ => show win0_0.index t (2 : Fin 3) * 2048 + 1 * (x 2).val = (k 2).val; rw [e2, hk2]; omega

/-- The weight block at every point is the whole reshaped weight array. -/
theorem iblk1_apply (c : Dev nD) (t : Fin cfg0.N) (x : S36x256.Idx) :
    (iblk m c 1 t : Vec Ideal S36x256 .f32) x = (V m c main_v0 : S36x256.Idx → Elt Ideal .f32) x := by
  obtain ⟨-, -, -, e0, e1, -⟩ := idx_facts t
  unfold iblk
  rw [View.read_apply]
  show V m c main_v0 _ = V m c main_v0 _
  congr 1
  funext a
  apply Fin.ext
  match a with
  | ⟨0, _⟩ => show win0_1.index t (0 : Fin 2) * 36 + 1 * (x 0).val = (x 0).val; rw [e0]; omega
  | ⟨1, _⟩ => show win0_1.index t (1 : Fin 2) * 256 + 1 * (x 1).val = (x 1).val; rw [e1]; omega

/-- The bias block at every point is the whole bias. -/
theorem iblk2_apply (c : Dev nD) (t : Fin cfg0.N) (x : S1x256.Idx) :
    (iblk m c 2 t : Vec Ideal S1x256 .f32) x = (m ((c : Thread nD τ).loc main_arg2) : S1x256.Idx → Elt Ideal .f32) x := by
  obtain ⟨-, -, -, -, -, e0, e1, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The weights as the region finds them: the [9, 4, 256] argument reshaped to [36, 256]. -/
theorem V_v0_eq (c : Dev nD) : (V m c main_v0 : S36x256.Idx → Elt Ideal .f32)
    = shapeCast S36x256 (m ((c : Thread nD τ).loc main_arg1) : S9x4x256.Idx → Elt Ideal .f32) shapeCasts_S9x4x256_S36x256 := by
  dsimp only [Gen.V, Gen.hostOps0]
  after_results
  rfl

/-- Row 4k + c of the reshaped weights is w(k, c, ·). -/
theorem V_v0_apply (c : Dev nD) (k : Fin 9) (ch : Fin 4) (d : Fin 256) :
    (V m c main_v0 : S36x256.Idx → Elt Ideal .f32) (ix2 (⟨4 * k.val + ch.val, by omega⟩ : Fin 36) d)
      = (m ((c : Thread nD τ).loc main_arg1) : S9x4x256.Idx → Elt Ideal .f32) (ix3 k ch d) := by
  rw [V_v0_eq]
  refine shapeCast_apply _ _ _ _ ?_
  show (S9x4x256.rowMajor (ix3 k ch d)).val = (S36x256.rowMajor (ix2 (⟨4 * k.val + ch.val, by omega⟩ : Fin 36) d)).val
  rw [Shape.rowMajor_val_three, Shape.rowMajor_val_two]
  show (k.val * 4 + ch.val) * 256 + d.val = (4 * k.val + ch.val) * 256 + d.val
  omega

/-! ## What a point writes back, the cover, and the run -/

/-- What point t writes back is block t of the convolution of the three arguments. -/
theorem flushed_eq (c : Dev nD) (t : Fin cfg0.N) :
    (dats m 0 c).flushed 3 t = ((cfg0.win 3).blk t).view.read (Elt Ideal)
      (Cert.ConvSpec.conv (m ((c : Thread nD τ).loc main_arg0)) (m ((c : Thread nD τ).loc main_arg1)) (m ((c : Thread nD τ).loc main_arg2))) := by
  rw [Value.flushed3]
  obtain ⟨-, -, -, -, -, -, -, e0, e1, e2⟩ := idx_facts t
  funext y
  rw [View.read_apply]
  show out0_3 (F := Ideal) (iblk m c 0 t) (iblk m c 1 t) (iblk m c 2 t) y
    = Cert.ConvSpec.conv (m ((c : Thread nD τ).loc main_arg0)) (m ((c : Thread nD τ).loc main_arg1)) (m ((c : Thread nD τ).loc main_arg2))
        (((cfg0.win 3).blk t).view.emb y)
  refine point_eq _ _ _ _ _ _ t.val (fun g ch l n hn => ?_) (fun k ch d => ?_) (fun d => ?_) y _ ?_ ?_ ?_
  · exact iblk0_apply m c t (ix3 g ch l) (ix3 n ch l) hn rfl rfl
  · exact (iblk1_apply m c t _).trans (V_v0_apply m c k ch d)
  · exact iblk2_apply m c t _
  · show win0_3.index t (0 : Fin 3) * 8 + 1 * (y 0).val = 8 * t.val + (y 0).val; rw [e0]; omega
  · show win0_3.index t (1 : Fin 3) * 2048 + 1 * (y 1).val = (y 1).val; rw [e1]; omega
  · show win0_3.index t (2 : Fin 3) * 256 + 1 * (y 2).val = (y 2).val; rw [e2]; omega

/-- An index of the output array is in point t's block iff each coordinate is in the block's range on its axis. -/
theorem mem_blk (t : Fin cfg0.N) (i : S512x2048x256.Idx) :
    i ∈ ((cfg0.win 3).blk t).view.set ↔ ∀ a : Fin 3, win0_3.index t a * S8x2048x256.size a ≤ (i a).val ∧ (i a).val < win0_3.index t a * S8x2048x256.size a + S8x2048x256.size a := by
  show i ∈ ((View.whole main_v1).slice (win0_3.rect t)).set ↔ _
  rw [View.set_slice_whole, Rect.mem_set_unit]
  exact Iff.rfl

/-- Every index of the output array is in the block of the point its batch belongs to. -/
theorem cover (i : S512x2048x256.Idx) : ∃ t : Fin cfg0.N, (cfg0.win 3).flush t = true ∧ i ∈ ((cfg0.win 3).blk t).view.set := by
  have hN : cfg0.N = 64 := N_0
  have hi0 : (i 0).val < 512 := (i 0).isLt
  have hi1 : (i 1).val < 2048 := (i 1).isLt
  have hi2 : (i 2).val < 256 := (i 2).isLt
  let t : Fin cfg0.N := ⟨(i 0).val / 8, by omega⟩
  have ht : t.val = (i 0).val / 8 := rfl
  obtain ⟨-, -, -, -, -, -, -, e0, e1, e2⟩ := idx_facts t
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; rw [e0, ht]; omega
  | ⟨1, _⟩ => show win0_3.index t (1 : Fin 3) * 2048 ≤ (i 1).val ∧ (i 1).val < win0_3.index t (1 : Fin 3) * 2048 + 2048; rw [e1]; omega
  | ⟨2, _⟩ => show win0_3.index t (2 : Fin 3) * 256 ≤ (i 2).val ∧ (i 2).val < win0_3.index t (2 : Fin 3) * 256 + 256; rw [e2]; omega

/-- The output array after the run is the convolution of the three arguments. -/
theorem final (c : Dev nD) : (dats m 0 c).arrAt 3 cfg0.N
    = Cert.ConvSpec.conv (m ((c : Thread nD τ).loc main_arg0)) (m ((c : Thread nD τ).loc main_arg1)) (m ((c : Thread nD τ).loc main_arg2)) :=
  (dats m 0 c).arrAt_eq_of_cover 3 _ (fun t _ => flushed_eq m c t) cover

/-- The run: the output array ends holding the convolution, bias and clamp of the arguments; the arguments are unchanged. -/
theorem run : θ_run (Cert.KernelIdeal.defs (F := Ideal)) (onTc (τ := τ) (main (F := Ideal))) ⟨m, fun _ => 0, ρ⟩ fun r => ∀ c : Dev nD,
      r.2.mem ((c : Thread nD τ).loc main_v1) = Cert.ConvSpec.conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

/-- info: 'Cert.KernelIdeal.ConvValue.run' depends on axioms: [propext, Classical.choice, Quot.sound] -/
#guard_msgs in #print axioms run

end Cert.KernelIdeal.ConvValue

end
-- ==== Proof.RefFrame.lean ====
/-
  The reference program up to and through its one pallas_call, as a run with every array named.

  Its host lines (a scalar zero, the padding of the input by four zeros on each side of the last axis, four overlapping
  slices of 520 positions at stride 512, and their stacking into a [512, 4, 4, 520] array of haloed tiles) run before the
  region; the region visits the 512 × 4 grid; at a point the body reads one haloed tile [4, 520], the nine [4, 256]
  weight slices and the bias, and overwrites the whole [1, 512, 256] output block with one payload (it also loads the
  output block it is about to overwrite, and uses nothing of what it loaded). So after the body the output's staging
  buffer holds that payload whatever it held before, each input's buffer holds its block, and the launch theorem of the
  pipeline library gives the run: every weakly fair execution terminates, the output array is what the library assembles
  from the blocks written back, and every other buffer is as the region found it.
-/
import proofs.«167356_g2000609548398270_pallasbulk_1038_18_alg».proof.Proof.Gen.ReferenceIdeal.Launch
import proofs.«167356_g2000609548398270_pallasbulk_1038_18_alg».proof.Proof.Gen.ReferenceIdeal.Skeleton
import proofs.«167356_g2000609548398270_pallasbulk_1038_18_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.ConvFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The three stretches of host operations before the region, in order. -/
abbrev hostLines : List (List (HloOp τ sig (Elt F))) := [hostOps0, hostOps0_1, hostOps0_2]

/-- Core `c`'s buffers as the region finds them: the launch contents after the host lines. -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

/-- @main is its host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- No host line writes an argument array: the region finds each as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    over the region-entry arrays whose body leaves the block in place. -/
theorem before_tile {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_weights {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_bias {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output block -/

abbrev rTile : Rect S1x1x4x520 := Rect.unit (s := S1x1x4x520) ![0, 0, 0, 0] S1x1x4x520.size inb_S1x1x4x520_S1x1x4x520_0_0_0_0
abbrev rW0 : Rect S9x4x256 := Rect.unit (s := S9x4x256) ![0, 0, 0] S1x4x256.size inb_S9x4x256_S1x4x256_0_0_0
abbrev rW1 : Rect S9x4x256 := Rect.unit (s := S9x4x256) ![1, 0, 0] S1x4x256.size inb_S9x4x256_S1x4x256_1_0_0
abbrev rW2 : Rect S9x4x256 := Rect.unit (s := S9x4x256) ![2, 0, 0] S1x4x256.size inb_S9x4x256_S1x4x256_2_0_0
abbrev rW3 : Rect S9x4x256 := Rect.unit (s := S9x4x256) ![3, 0, 0] S1x4x256.size inb_S9x4x256_S1x4x256_3_0_0
abbrev rW4 : Rect S9x4x256 := Rect.unit (s := S9x4x256) ![4, 0, 0] S1x4x256.size inb_S9x4x256_S1x4x256_4_0_0
abbrev rW5 : Rect S9x4x256 := Rect.unit (s := S9x4x256) ![5, 0, 0] S1x4x256.size inb_S9x4x256_S1x4x256_5_0_0
abbrev rW6 : Rect S9x4x256 := Rect.unit (s := S9x4x256) ![6, 0, 0] S1x4x256.size inb_S9x4x256_S1x4x256_6_0_0
abbrev rW7 : Rect S9x4x256 := Rect.unit (s := S9x4x256) ![7, 0, 0] S1x4x256.size inb_S9x4x256_S1x4x256_7_0_0
abbrev rW8 : Rect S9x4x256 := Rect.unit (s := S9x4x256) ![8, 0, 0] S1x4x256.size inb_S9x4x256_S1x4x256_8_0_0
abbrev rBias : Rect S1x256 := Rect.unit (s := S1x256) ![0, 0] S1x256.size inb_S1x256_S1x256_0_0
abbrev rOut : Rect S1x512x256 := Rect.unit (s := S1x512x256) ![0, 0, 0] S1x512x256.size inb_S1x512x256_S1x512x256_0_0_0

/-- The one payload the body stores, from the tile, the weights and the bias as the staging buffers hold them. -/
def payload (x0 : Vec F S1x1x4x520 .f32) (x1 : Vec F S9x4x256 .f32) (x2 : Vec F S1x256 .f32) : FVec F S1x512x256 .f32 :=
  k0_pay1 (k0_pay2 (View.ld x0 rTile))
    (k0_pay3 (View.ld x0 rTile) (View.ld x1 rW0) (View.ld x1 rW1) (View.ld x1 rW2) (View.ld x1 rW3) (View.ld x1 rW4))
    (k0_pay4 (View.ld x0 rTile)) (View.ld x1 rW5) (View.ld x1 rW6) (View.ld x1 rW7) (View.ld x1 rW8) (View.ld x2 rBias)

/-- The output's staging buffer after the body: its one store, over the whole block. -/
def outBlock (x0 : Vec F S1x1x4x520 .f32) (x1 : Vec F S9x4x256 .f32) (x2 : Vec F S1x256 .f32) : Vec F S1x512x256 .f32 :=
  View.canon [⟨rOut, payload x0 x1 x2⟩]

/-- The store's rectangle is the whole block. -/
theorem out_cover (p0 : Vec F S1x512x256 .f32) (y : S1x512x256.Idx) :
    ∃ pc ∈ ([⟨rOut, p0⟩] : List (View.Piece (Elt F) S1x512x256 .f32)), y ∈ pc.1.set :=
  View.cover_of_tiled [⟨rOut, p0⟩] S1x512x256.size (by rfl) y

/-! ## The body's triple -/

set_option maxHeartbeats 1000000 in
/-- The body on whole staging memrefs — the inputs' at contents `x0 x1 x2`, the output's at anything — runs to the
    continuation with the inputs' as they were and the output's at `outBlock`. -/
theorem sound_kernel (c : Dev nD) (E : Set ℕ) (i : grid0.Coords) (arg2 : Memref sig .tc .vmem S1x1x4x520 .f32) (harg2 : arg2.IsWhole) (arg3 : Memref sig .tc .vmem S9x4x256 .f32) (harg3 : arg3.IsWhole) (arg4 : Memref sig .tc .vmem S1x256 .f32) (harg4 : arg4.IsWhole) (arg5 : Memref sig .tc .vmem S1x512x256 .f32) (harg5 : arg5.IsWhole)
    (x0 : Vec F S1x1x4x520 .f32) (x1 : Vec F S9x4x256 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outBlock x0 x1 x2)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (out_cover _)

end Cert.ReferenceIdeal.ConvFrame

end
-- ==== Proof.RefRun.lean ====
/-
  The reference's run with its arrays named: the proof data of its one pipeline (each input's staging buffer at its block,
  the output's at the body's payload of the input blocks), the body obligation at every grid point, and the launch
  theorem. After the run the output array is what the library assembles from the blocks written back, and each argument
  array is as launched: the weights and the bias are staged and never written back, and the input is no window's array
  (the region reads its padded, tiled copy), so the region leaves it as it found it.
-/
import proofs.«167356_g2000609548398270_pallasbulk_1038_18_alg».proof.Proof.RefFrame

set_option maxRecDepth 16384

noncomputable section

namespace Cert.ReferenceIdeal.ConvFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    the output's at the payload of the input blocks; the untouched scoped rest as the invariant; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_tile (c : Dev nD) (t : Fin cfg0.N) : (dats m 0 c).after 0 t = iblk m c 0 t := by dsimp only [dats]
theorem after_weights (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before_tile m (dats m 0 c) (A_eq m c 0) (after_tile m c) t d
theorem before1 (c : Dev nD) (t : Fin cfg0.N) (d) : (dats m 0 c).before 1 t d = iblk m c 1 t :=
  before_weights m (dats m 0 c) (A_eq m c 1) (after_weights m c) t d
theorem before2 (c : Dev nD) (t : Fin cfg0.N) (d) : (dats m 0 c).before 2 t d = iblk m c 2 t :=
  before_bias m (dats m 0 c) (A_eq m c 2) (after_bias m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after_tile, after_weights, after_bias, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What point `t` writes back to the output array: the body's block, read through the window's block. -/
theorem flushed_out (c : Dev nD) (t : Fin cfg0.N) :
    (dats m 0 c).flushed 3 t = (cfg0.win 3).cut (grid0.coords t) (outBlock (iblk m c 0 t) (iblk m c 1 t) (iblk m c 2 t)) := by
  show (cfg0.win 3).cut (grid0.coords t) ((dats m 0 c).after 3 t) = _
  rw [after_out]

/-- The run with the output array named and the arguments unchanged. -/
theorem run_named : θ_run defs (onTc (τ := τ) (main (F := F))) ⟨m, fun _ => 0, ρ⟩ fun r => ∀ c : Dev nD,
      r.2.mem ((c : Thread nD τ).loc main_v10) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).2 main_arg0 (Pipeline.mem_restRefs_of main_arg0 (by decide) (by decide))).trans (V_arg0 m c),
      ((h c).1 1).trans (((dats m 0 c).arrAt_in 1 rfl _).trans ((A_eq m c 1).trans (V_arg1 m c))),
      ((h c).1 2).trans (((dats m 0 c).arrAt_in 2 rfl _).trans ((A_eq m c 2).trans (V_arg2 m c)))⟩)
    (run_main m ρ)

/-- The frame claim's post: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.ReferenceIdeal.ConvFrame

end
-- ==== Proof.RefCover.lean ====
/-
  The geometry of the reference's grid. Point `t` of the 512 × 4 grid is batch `t / 4` and tile `t % 4`: it reads haloed
  tile (t / 4, t % 4) of the stacked input, the whole weight and bias arrays, and writes rows 512 (t % 4) … 512 (t % 4) + 511
  of batch t / 4 of the output. These blocks are pairwise different and together fill the output array.
-/
import proofs.«167356_g2000609548398270_pallasbulk_1038_18_alg».proof.Proof.RefRun

set_option maxRecDepth 16384

noncomputable section

namespace Cert.ReferenceIdeal.ConvFrame

open Cert.ReferenceIdeal Cert.ReferenceIdeal.Gen
open Idealize.ShloMosaic Idealize.ShloMosaic.TcCoe Idealize.SL.Sem
open Idealize.ShloMosaic.Pipeline (Dat)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The printed index maps at every grid point, decided over the 2048 points. -/
theorem idx_facts : ∀ t : Fin cfg0.N,
    win0_3.index t (0 : Fin 3) = t.val / 4 ∧ win0_3.index t (1 : Fin 3) = t.val % 4 ∧ win0_3.index t (2 : Fin 3) = 0
    ∧ win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- An index of the output array is in point `t`'s block iff each coordinate is in the block's range on its axis. -/
theorem mem_out_blk (t : Fin cfg0.N) (i : S512x2048x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v10).slice (win0_3.rect t)).set ↔ _
  rw [View.set_slice_whole, Rect.mem_set_unit]
  exact Iff.rfl

/-- Every index of the output array is in the block of the point for its batch and its tile of 512 rows. -/
theorem out_covered (i : S512x2048x256.Idx) :
    ∃ t : Fin cfg0.N, (cfg0.win 3).flush t = true ∧ i ∈ ((cfg0.win 3).blk t).view.set := by
  have h0 : (i 0).val < 512 := (i 0).isLt
  have h1 : (i 1).val < 2048 := (i 1).isLt
  have h2 : (i 2).val < 256 := (i 2).isLt
  have hN : cfg0.N = 2048 := N_0
  refine ⟨⟨4 * (i 0).val + (i 1).val / 512, by omega⟩, flush0_3 _, ?_⟩
  rw [mem_out_blk]
  obtain ⟨e0, e1, e2, -⟩ := idx_facts ⟨4 * (i 0).val + (i 1).val / 512, by omega⟩
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 512 ≤ (i 1).val ∧ (i 1).val < win0_3.index _ (1 : Fin 3) * 512 + 512; rw [e1]; dsimp only; omega
  | ⟨2, _⟩ => show win0_3.index _ (2 : Fin 3) * 256 ≤ (i 2).val ∧ (i 2).val < win0_3.index _ (2 : Fin 3) * 256 + 256; rw [e2]; omega

end Cert.ReferenceIdeal.ConvFrame

end
-- ==== Proof.RefBody.lean ====
/-
  The reference program's kernel body at one grid point, read at an output index.

  The body holds a haloed tile of the input (four channels, 520 positions), nine weight slices (slice k is w(k, ·, ·), four
  channels by 256 features) and the bias row. It adds onto zero, for k = 0, …, 8 in turn, the product of the tile's window
  of 512 positions starting at k (contracted over the channel axis) with slice k, then adds the bias, clamps at zero and
  adds a leading unit axis. At row r and feature d that is

      max (Σ_k Σ_c tile(c, r + k) · w_k(c, d) + bias(d)) 0 .
-/
import proofs.«167356_g2000609548398270_pallasbulk_1038_18_alg».proof.Proof.Gen.ReferenceIdeal.Skeleton
import proofs.«167356_g2000609548398270_pallasbulk_1038_18_alg».proof.Proof.ConvSpec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.ConvBody

open Idealize.ShloMosaic Idealize.SL.Sem Idealize.ShloMosaic.ValueIdx
open Cert.ReferenceIdeal Cert.ReferenceIdeal.Gen

/-- The product's dimension numbers: both operands are contracted along their axis 0 (the four channels); the left
    operand's axis 1 is the result's axis 0, the right operand's axis 1 the result's axis 1. -/
abbrev dotD : DotDims S4x512 S4x256 S512x256 := dot_S4x512_S4x256_S512x256_0_0_1_1_n_n

/-! ## The operands' indices at an output index and a contraction position -/

theorem lhs_0 (i : S512x256.Idx) (q : dotD.contr.Idx) : (dotD.lhsIdx i q 0).val = (q ⟨0, by decide⟩).val :=
  dotD.lhsIdx_val_of_single rfl i q

theorem lhs_1 (i : S512x256.Idx) (q : dotD.contr.Idx) : (dotD.lhsIdx i q 1).val = (i 0).val := by
  unfold DotDims.lhsIdx
  rw [dif_neg (show ¬(1 : Fin S4x512.rank) ∈ dotD.lhsBatch by decide),
    dif_pos (show (1 : Fin S4x512.rank) ∈ dotD.lhsNonContracting by decide)]
  rfl

theorem rhs_0 (i : S512x256.Idx) (q : dotD.contr.Idx) : (dotD.rhsIdx i q 0).val = (q ⟨0, by decide⟩).val :=
  dotD.rhsIdx_val_of_single rfl i q

theorem rhs_1 (i : S512x256.Idx) (q : dotD.contr.Idx) : (dotD.rhsIdx i q 1).val = (i 1).val := by
  unfold DotDims.rhsIdx
  rw [dif_neg (show ¬(1 : Fin S4x256.rank) ∈ dotD.rhsBatch by decide),
    dif_pos (show (1 : Fin S4x256.rank) ∈ dotD.rhsNonContracting by decide)]
  rfl

/-! ## One product -/

/-- The product of a window `x` (four channels by 512 positions) with a weight slice `w` (four channels by 256
    features), added onto zero, at row `r` and feature `d`: the sum over the four channels of the products. -/
theorem matmul_zero_apply (x : FVec Ideal S4x512 .f32) (w : FVec Ideal S4x256 .f32) (r : Fin 512) (d : Fin 256) :
    matmul (F := Ideal) dot_S4x512_S4x256_S512x256_0_0_1_1_n_n none x w
        (constant (F := Ideal) S512x256 .f32 0x00000000#32) (ix2 r d)
      = ∑ c : Fin 4, x (ix2 c r) * w (ix2 c d) := by
  simp only [matmul]
  rw [Ideal.matmul_constant_zero_apply, ← Equiv.sum_comp (contrEquiv1 dotD 4 rfl rfl).symm]
  refine Finset.sum_congr rfl fun k _ => ?_
  have hk := contrEquiv1_symm_val dotD 4 rfl rfl k
  have el : dotD.lhsIdx (ix2 r d) ((contrEquiv1 dotD 4 rfl rfl).symm k) = ix2 k r := funext fun a => Fin.ext (by
    match a with
    | ⟨0, _⟩ => exact (lhs_0 _ _).trans hk
    | ⟨1, _⟩ => exact lhs_1 _ _)
  have er : dotD.rhsIdx (ix2 r d) ((contrEquiv1 dotD 4 rfl rfl).symm k) = ix2 k d := funext fun a => Fin.ext (by
    match a with
    | ⟨0, _⟩ => exact (rhs_0 _ _).trans hk
    | ⟨1, _⟩ => exact rhs_1 _ _)
  rw [el, er]

/-! ## The tile's windows and the weight slices -/

/-- The tile with its two leading unit axes dropped reads the tile. -/
theorem tile_apply (v0 : Vec Ideal S1x1x4x520 .f32) (c : Fin 4) (p : Fin 520) :
    k0_pay2 (F := Ideal) v0 (ix2 c p) = v0 (ix4 0 0 c p) := by
  unfold k0_pay2
  refine shapeCast_apply v0 _ (ix2 c p) (ix4 0 0 c p) ?_
  rw [Shape.rowMajor_val_four, Shape.rowMajor_val_two]
  show ((0 * 1 + 0) * 4 + c.val) * 520 + p.val = c.val * 520 + p.val
  omega

/-- The window of 512 positions starting at `k` reads the tile `k` positions further on. -/
theorem window_apply (v0 : Vec Ideal S1x1x4x520 .f32) (k : ℕ) (h : S4x520.Slices ![0, k] S4x512) (c : Fin 4) (r : Fin 512)
    (p : Fin 520) (hp : p.val = r.val + k) :
    extractStridedSlice S4x512 ![0, k] (k0_pay2 (F := Ideal) v0) h (ix2 c r) = v0 (ix4 0 0 c p) := by
  rw [slice2_axis1_apply k (k0_pay2 (F := Ideal) v0) h c r p (by omega), tile_apply]

/-- One tap's term: the window starting at `k` times a weight slice, added onto zero, at row `r` and feature `d`. -/
theorem term_apply (v0 : Vec Ideal S1x1x4x520 .f32) (w : Vec Ideal S1x4x256 .f32) (k : ℕ) (h : S4x520.Slices ![0, k] S4x512)
    (r : Fin 512) (d : Fin 256) (hk : k ≤ 8) :
    matmul (F := Ideal) dot_S4x512_S4x256_S512x256_0_0_1_1_n_n none
        (extractStridedSlice S4x512 ![0, k] (k0_pay2 (F := Ideal) v0) h)
        (shapeCast S4x256 w shapeCasts_S1x4x256_S4x256 : FVec Ideal S4x256 .f32)
        (constant (F := Ideal) S512x256 .f32 0x00000000#32) (ix2 r d)
      = ∑ c : Fin 4, v0 (ix4 0 0 c ⟨r.val + k, by omega⟩) * w (ix3 0 c d) := by
  rw [matmul_zero_apply]
  refine Finset.sum_congr rfl fun c _ => ?_
  rw [window_apply v0 k h c r ⟨r.val + k, by omega⟩ rfl, shapeCast_1ab_ab_apply]

/-! ## The body -/

/-- The nine weight slices as a family over the tap. -/
def wsl (v4 v9 v14 v19 v24 v29 v34 v39 v44 : Vec Ideal S1x4x256 .f32) : Fin 9 → Vec Ideal S1x4x256 .f32 :=
  ![v4, v9, v14, v19, v24, v29, v34, v39, v44]

section
variable (v4 v9 v14 v19 v24 v29 v34 v39 v44 : Vec Ideal S1x4x256 .f32)
theorem wsl_0 : wsl v4 v9 v14 v19 v24 v29 v34 v39 v44 0 = v4 := rfl
theorem wsl_1 : wsl v4 v9 v14 v19 v24 v29 v34 v39 v44 1 = v9 := rfl
theorem wsl_2 : wsl v4 v9 v14 v19 v24 v29 v34 v39 v44 2 = v14 := rfl
theorem wsl_3 : wsl v4 v9 v14 v19 v24 v29 v34 v39 v44 3 = v19 := rfl
theorem wsl_4 : wsl v4 v9 v14 v19 v24 v29 v34 v39 v44 4 = v24 := rfl
theorem wsl_5 : wsl v4 v9 v14 v19 v24 v29 v34 v39 v44 5 = v29 := rfl
theorem wsl_6 : wsl v4 v9 v14 v19 v24 v29 v34 v39 v44 6 = v34 := rfl
theorem wsl_7 : wsl v4 v9 v14 v19 v24 v29 v34 v39 v44 7 = v39 := rfl
theorem wsl_8 : wsl v4 v9 v14 v19 v24 v29 v34 v39 v44 8 = v44 := rfl
end

/-- The first five taps added onto zero, at row `r` and feature `d`. -/
theorem first_five_apply (v0 : Vec Ideal S1x1x4x520 .f32) (v4 v9 v14 v19 v24 : Vec Ideal S1x4x256 .f32)
    (r : Fin 512) (d : Fin 256) :
    k0_pay3 (F := Ideal) v0 v4 v9 v14 v19 v24 (ix2 r d)
      = ((((((0 : EReal)
          + ∑ c : Fin 4, v0 (ix4 0 0 c ⟨r.val + 0, by omega⟩) * v4 (ix3 0 c d))
          + ∑ c : Fin 4, v0 (ix4 0 0 c ⟨r.val + 1, by omega⟩) * v9 (ix3 0 c d))
          + ∑ c : Fin 4, v0 (ix4 0 0 c ⟨r.val + 2, by omega⟩) * v14 (ix3 0 c d))
          + ∑ c : Fin 4, v0 (ix4 0 0 c ⟨r.val + 3, by omega⟩) * v19 (ix3 0 c d))
          + ∑ c : Fin 4, v0 (ix4 0 0 c ⟨r.val + 4, by omega⟩) * v24 (ix3 0 c d)) := by
  unfold k0_pay3
  simp only [addf_apply, broadcast_apply]
  rw [term_apply v0 v4 0 _ r d (by omega), term_apply v0 v9 1 _ r d (by omega), term_apply v0 v14 2 _ r d (by omega),
    term_apply v0 v19 3 _ r d (by omega), term_apply v0 v24 4 _ r d (by omega)]
  show ((((Ideal.ofBits .f32 0x00000000#32 + _) + _) + _) + _) + _ = _
  rw [Ideal.ofBits_zero_f32]

/-- The body's stored value at row `r` and feature `d`: the nine taps' sums over the four channels, the bias, the clamp
    at zero. -/
theorem body_apply (v0 : Vec Ideal S1x1x4x520 .f32) (v4 v9 v14 v19 v24 v29 v34 v39 v44 : Vec Ideal S1x4x256 .f32)
    (v48 : Vec Ideal S1x256 .f32) (r : Fin 512) (d : Fin 256) :
    k0_pay1 (F := Ideal) (k0_pay2 v0) (k0_pay3 v0 v4 v9 v14 v19 v24) (k0_pay4 v0) v29 v34 v39 v44 v48 (ix3 0 r d)
      = max ((∑ k : Fin 9, ∑ c : Fin 4, v0 (ix4 0 0 c ⟨r.val + k.val, by omega⟩)
            * (wsl v4 v9 v14 v19 v24 v29 v34 v39 v44 k) (ix3 0 c d)) + v48 (ix2 0 d)) 0 := by
  unfold k0_pay1 k0_pay4
  rw [shapeCast_ab_1ab_apply]
  simp only [maximumf_apply, addf_apply, broadcast_apply]
  rw [first_five_apply, term_apply v0 v29 5 _ r d (by omega), term_apply v0 v34 6 _ r d (by omega),
    term_apply v0 v39 7 _ r d (by omega), term_apply v0 v44 8 _ r d (by omega), broadcastTo_1b_ab_apply]
  show max (_ + _) (Ideal.ofBits .f32 0x00000000#32) = _
  rw [Ideal.ofBits_zero_f32]
  exact congrArg (fun s => max (s + v48 (ix2 0 d)) 0)
    (Cert.ConvSpec.sum_chain fun k : Fin 9 => ∑ c : Fin 4, v0 (ix4 0 0 c ⟨r.val + k.val, by omega⟩)
      * (wsl v4 v9 v14 v19 v24 v29 v34 v39 v44 k) (ix3 0 c d))

end Cert.ReferenceIdeal.ConvBody

end
-- ==== Proof.RefBlock.lean ====
/-
  What one grid point of the reference writes back, entry by entry.

  At point `t` (batch `n = t / 4`, tile `j = t % 4`) the body's payload at row `r`, feature `d` is
      max (Σ_k Σ_c tile(c, r + k) · w(k, c, d) + b(0, d)) 0,
  where tile(c, q) is the stacked haloed input at (n, j, c, q). When that array holds the padded input — entry
  (n, j, c, q) is x̃(n, c, 512 j + q), the input row with four zeros in front and behind — tile(c, r + k) is
  x̃(n, c, (512 j + r) + k), the convolution's tap for output row `512 j + r`. So the block written back at `t` is the
  block of the convolution of the launch arrays, and since the blocks fill the output, the output array ends as the
  convolution.
-/
import proofs.«167356_g2000609548398270_pallasbulk_1038_18_alg».proof.Proof.RefCover
import proofs.«167356_g2000609548398270_pallasbulk_1038_18_alg».proof.Proof.RefBody
import proofs.«167356_g2000609548398270_pallasbulk_1038_18_alg».proof.Proof.ConvSpec
import Idealize.ShloMosaic.Lib.ValueIdx

set_option maxRecDepth 16384

noncomputable section

namespace Cert.ReferenceIdeal.ConvFrame

open Cert.ReferenceIdeal Cert.ReferenceIdeal.Gen
open Idealize.ShloMosaic Idealize.ShloMosaic.TcCoe Idealize.SL.Sem Idealize.ShloMosaic.ValueIdx
open Idealize.ShloMosaic.Pipeline (Dat)

/-! ## The payload at an index -/

/-- Slice `k` of the weights, loaded as a [1, 4, 256] vector, at (0, c, d) is the weights at (k, c, d). -/
theorem ld_wslice (x1 : Vec Ideal S9x4x256 .f32) (k : Nat) (hk : k < 9)
    (inb : ∀ a, (![k, 0, 0] : Fin 3 → Nat) a + S1x4x256.size a ≤ S9x4x256.size a) (c : Fin 4) (d : Fin 256) :
    View.ld x1 (Rect.unit (s := S9x4x256) ![k, 0, 0] S1x4x256.size inb) (ix3 0 c d) = x1 (ix3 ⟨k, hk⟩ c d) := by
  show x1 _ = x1 _
  congr 1
  funext a
  apply Fin.ext
  match a with
  | ⟨0, _⟩ => show k + 1 * (0 : Nat) = k; omega
  | ⟨1, _⟩ => show 0 + 1 * c.val = c.val; omega
  | ⟨2, _⟩ => show 0 + 1 * d.val = d.val; omega

/-- The stored payload at row `r`, feature `d`, from the staging buffers' contents: nine taps over four channels, the
    bias, the clamp. -/
theorem payload_apply (x0 : Vec Ideal S1x1x4x520 .f32) (x1 : Vec Ideal S9x4x256 .f32) (x2 : Vec Ideal S1x256 .f32)
    (r : Fin 512) (d : Fin 256) :
    payload (F := Ideal) x0 x1 x2 (ix3 0 r d)
      = max ((∑ k : Fin 9, ∑ ch : Fin 4, x0 (ix4 0 0 ch ⟨r.val + k.val, by omega⟩) * x1 (ix3 k ch d)) + x2 (ix2 0 d)) 0 := by
  unfold payload
  simp only [View.ld_unit_zero (S := S1x1x4x520) zeros4, View.ld_unit_zero (S := S1x256) zeros2]
  rw [Cert.ReferenceIdeal.ConvBody.body_apply]
  congr 1
  congr 1
  refine Finset.sum_congr rfl fun k _ => Finset.sum_congr rfl fun ch _ => ?_
  congr 1
  match k with
  | ⟨0, _⟩ => exact ld_wslice x1 0 (by omega) _ ch d
  | ⟨1, _⟩ => exact ld_wslice x1 1 (by omega) _ ch d
  | ⟨2, _⟩ => exact ld_wslice x1 2 (by omega) _ ch d
  | ⟨3, _⟩ => exact ld_wslice x1 3 (by omega) _ ch d
  | ⟨4, _⟩ => exact ld_wslice x1 4 (by omega) _ ch d
  | ⟨5, _⟩ => exact ld_wslice x1 5 (by omega) _ ch d
  | ⟨6, _⟩ => exact ld_wslice x1 6 (by omega) _ ch d
  | ⟨7, _⟩ => exact ld_wslice x1 7 (by omega) _ ch d
  | ⟨8, _⟩ => exact ld_wslice x1 8 (by omega) _ ch d

/-! ## The blocks at a point, over arbitrary arrays -/

variable (c : Dev nD) (t : Fin cfg0.N)

theorem pt_lt : t.val < 2048 := by have := t.isLt; have : cfg0.N = 2048 := N_0; omega

/-- The tile block at point `t` is tile (t / 4, t % 4) of the stacked array. -/
theorem read_tile (A : Buf (Elt Ideal) ((c : Thread nD τ).loc main_v9)) (ch : Fin 4) (q : Fin 520) :
    ((cfg0.win 0).blk t).view.read (Elt Ideal) A (ix4 0 0 ch q)
      = A (ix4 ⟨t.val / 4, by have := pt_lt t; omega⟩ ⟨t.val % 4, by omega⟩ ch q) := by
  obtain ⟨-, -, -, e0, e1, e2, e3, -⟩ := idx_facts t
  show A (((cfg0.win 0).blk t).view.emb (ix4 0 0 ch q)) = A _
  congr 1
  funext a
  apply Fin.ext
  match a with
  | ⟨0, _⟩ => show win0_0.index t (0 : Fin 4) * 1 + 1 * (0 : Nat) = t.val / 4; omega
  | ⟨1, _⟩ => show win0_0.index t (1 : Fin 4) * 1 + 1 * (0 : Nat) = t.val % 4; omega
  | ⟨2, _⟩ => show win0_0.index t (2 : Fin 4) * 4 + 1 * ch.val = ch.val; omega
  | ⟨3, _⟩ => show win0_0.index t (3 : Fin 4) * 520 + 1 * q.val = q.val; omega

/-- The weights' block at every point is the whole array. -/
theorem read_weights (A : Buf (Elt Ideal) ((c : Thread nD τ).loc main_arg1)) (k : Fin 9) (ch : Fin 4) (d : Fin 256) :
    ((cfg0.win 1).blk t).view.read (Elt Ideal) A (ix3 k ch d) = A (ix3 k ch d) := by
  obtain ⟨-, -, -, -, -, -, -, e0, e1, e2, -⟩ := idx_facts t
  show A (((cfg0.win 1).blk t).view.emb (ix3 k ch d)) = A _
  congr 1
  funext a
  apply Fin.ext
  match a with
  | ⟨0, _⟩ => show win0_1.index t (0 : Fin 3) * 9 + 1 * k.val = k.val; omega
  | ⟨1, _⟩ => show win0_1.index t (1 : Fin 3) * 4 + 1 * ch.val = ch.val; omega
  | ⟨2, _⟩ => show win0_1.index t (2 : Fin 3) * 256 + 1 * d.val = d.val; omega

/-- The bias's block at every point is the whole array. -/
theorem read_bias (A : Buf (Elt Ideal) ((c : Thread nD τ).loc main_arg2)) (d : Fin 256) :
    ((cfg0.win 2).blk t).view.read (Elt Ideal) A (ix2 0 d) = A (ix2 0 d) := by
  obtain ⟨-, -, -, -, -, -, -, -, -, -, e0, e1⟩ := idx_facts t
  show A (((cfg0.win 2).blk t).view.emb (ix2 0 d)) = A _
  congr 1
  funext a
  apply Fin.ext
  match a with
  | ⟨0, _⟩ => show win0_2.index t (0 : Fin 2) * 1 + 1 * (0 : Nat) = 0; omega
  | ⟨1, _⟩ => show win0_2.index t (1 : Fin 2) * 256 + 1 * d.val = d.val; omega

/-- Row `r`, feature `d` of the output block at point `t` is row `512 (t % 4) + r` of batch `t / 4` of the array. -/
theorem emb_out (r : Fin 512) (d : Fin 256) :
    ((cfg0.win 3).blk t).view.emb (ix3 0 r d)
      = ix3 ⟨t.val / 4, by have := pt_lt t; omega⟩ ⟨512 * (t.val % 4) + r.val, by omega⟩ d := by
  obtain ⟨e0, e1, e2, -⟩ := idx_facts t
  funext a
  apply Fin.ext
  match a with
  | ⟨0, _⟩ => show win0_3.index t (0 : Fin 3) * 1 + 1 * (0 : Nat) = t.val / 4; omega
  | ⟨1, _⟩ => show win0_3.index t (1 : Fin 3) * 512 + 1 * r.val = 512 * (t.val % 4) + r.val; omega
  | ⟨2, _⟩ => show win0_3.index t (2 : Fin 3) * 256 + 1 * d.val = d.val; omega

end Cert.ReferenceIdeal.ConvFrame

end
-- ==== Proof.LibStackOfFn.lean ====
/-
  A concatenation of four pieces listed one by one, read at an index.

  The library reads a concatenation of N pieces of one shape when the pieces are given as a family indexed by
  position (`List.ofFn`). A printed program lists the pieces one by one. For four pieces the two lists are equal, a
  concatenation depends on nothing but its list, and so the listed form is read the same way: the piece the axis
  coordinate over the pieces' extent names, at the index with that coordinate reduced modulo the extent and the
  other coordinates unchanged.
-/
import Idealize.ShloMosaic.Lib.Pipeline.Value

noncomputable section

namespace Cert.LibStackOfFn

open Idealize.ShloMosaic

variable {α : Type}

/-- A concatenation depends on its list of pieces only: equal lists give equal arrays (the side condition about the
    pieces' shapes is carried along the equation). -/
theorem concatenate_congr {t : Shape} (a : Fin t.rank) {xs ys : List ((s : Shape) × (s.Idx → α))} (e : xs = ys)
    (h : Shape.Concatenates (xs.map (·.1)) t a) : concatenate t a xs h = concatenate t a ys (e ▸ h) := by
  subst e; rfl

/-- Four entries listed one by one are the list of the family that has them at positions 0, 1, 2, 3. -/
theorem four_ofFn {β : Type} (f : Fin 4 → β) : [f 0, f 1, f 2, f 3] = List.ofFn f := by
  simp [List.ofFn_succ]

/-- Four pieces of one shape `s₁`, listed one by one and concatenated along axis `a` where each has extent `K`, read
    at `j`: piece `n = (j a) / K` at the index `i` whose coordinate on that axis is `(j a) % K` and whose other
    coordinates are `j`'s. -/
theorem concatenate_four_apply {t s₁ : Shape} (a : Fin t.rank) (G : Fin 4 → (s₁.Idx → α))
    (h : Shape.Concatenates [s₁, s₁, s₁, s₁] t a) (hr : s₁.rank = t.rank) (K : Nat) (hK : s₁.size (a.cast hr.symm) = K)
    (j : t.Idx) (n : Fin 4) (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, G 0⟩, ⟨s₁, G 1⟩, ⟨s₁, G 2⟩, ⟨s₁, G 3⟩] h j = G n i := by
  have e := four_ofFn (fun n : Fin 4 => (⟨s₁, G n⟩ : (s : Shape) × (s.Idx → α)))
  refine (congrFun (concatenate_congr a e h) j).trans ?_
  exact concatenate_ofFn_apply a G _ hr K hK j n hn i hia hi

end Cert.LibStackOfFn

end
-- ==== Proof.RefHost.lean ====
/-
  The reference program's host operations before its region, read at an index.

  The reference pads each row (n, c) of its input x by four zeros in front and four behind (length 2048 + 8 = 2056),
  cuts the padded rows into four overlapping stretches of 520 positions starting at 0, 512, 1024 and 1536, gives each
  stretch a new axis of extent one in second place, and stacks the four along that axis. Entry (n, j, c, q) of the
  stack is therefore the padded row (n, c) at position 512 j + q: entry 512 j + q - 4 of the row when
  4 ≤ 512 j + q < 2052, and zero otherwise.

  Two statements: the stack as a function of an arbitrary x, read at an index; and that the buffer the operations
  leave the stack in holds exactly that function of the contents of the input's buffer.
-/
import proofs.«167356_g2000609548398270_pallasbulk_1038_18_alg».proof.Proof.Gen.ReferenceIdeal.Launch
import proofs.«167356_g2000609548398270_pallasbulk_1038_18_alg».proof.Proof.ConvSpec
import proofs.«167356_g2000609548398270_pallasbulk_1038_18_alg».proof.Proof.LibStackOfFn
import Idealize.ShloMosaic.Lib.Pipeline.Value
import Idealize.ShloMosaic.Lib.ValueIdx
import Idealize.ShloMosaic.Lib.KernelVsHost
import Idealize.ShloMosaic.Lib.StableHlo.Run

noncomputable section

namespace Cert.ReferenceIdeal.ConvHost

open Idealize.ShloMosaic Idealize.ShloMosaic.ValueIdx

/-! ## The operations' terms -/

/-- The rows of `x` with four copies of the converted integer zero in front and four behind. -/
def padded (x : FVec Ideal S512x4x2048 .f32) : FVec Ideal S512x4x2056 .f32 :=
  pad S512x4x2056 ![0, 0, 4] ![0, 0, 4] ![0, 0, 0] x (sitofp (F := Ideal) .f32 (constantI S_ 32 0#32))
    Gen.pads_S512x4x2048_S512x4x2056_000_000_440 Gen.h_S_

/-- The stretch of 520 positions of the padded rows that starts at `off`, with an axis of extent one put in second
    place. -/
def piece (x : FVec Ideal S512x4x2048 .f32) (off : Nat) (hs : S512x4x2056.Slices ![0, 0, off] S512x4x520) :
    FVec Ideal S512x1x4x520 .f32 :=
  broadcastInDim S512x1x4x520 ![0, 2, 3] Gen.bcast_S512x4x520_S512x1x4x520_0_2_3
    (extractStridedSlice S512x4x520 ![0, 0, off] (padded x) hs)

/-- The four stretches, starting at 0, 512, 1024 and 1536, stacked along the new axis. -/
def halo (x : FVec Ideal S512x4x2048 .f32) : FVec Ideal S512x4x4x520 .f32 :=
  concatenate S512x4x4x520 1
    [⟨S512x1x4x520, piece x 0 Gen.slices_S512x4x2056_S512x4x520_0_0_0⟩,
     ⟨S512x1x4x520, piece x 512 Gen.slices_S512x4x2056_S512x4x520_0_0_512⟩,
     ⟨S512x1x4x520, piece x 1024 Gen.slices_S512x4x2056_S512x4x520_0_0_1024⟩,
     ⟨S512x1x4x520, piece x 1536 Gen.slices_S512x4x2056_S512x4x520_0_0_1536⟩]
    Gen.concatenates_S512x1x4x520_S512x1x4x520_S512x1x4x520_S512x1x4x520_S512x4x4x520_d1

/-! ## Read at an index -/

/-- Row `(n, c)` of `x` with four zeros on each side, at position `m`. -/
def rowAt (x : FVec Ideal S512x4x2048 .f32) (n : Fin 512) (c : Fin 4) (m : Nat) : EReal :=
  if h : 4 ≤ m ∧ m < 2052 then x (ix3 n c ⟨m - 4, by omega⟩) else 0

/-- The integer zero converted to a float is zero. -/
theorem sitofp_zero : FloatOps.sitofp (F := Ideal) .f32 (0#32 : BitVec 32) = (0 : EReal) := by
  show (((0#32 : BitVec 32).toInt : ℝ) : EReal) = 0
  simp

/-- The padded rows at position `p`: the row's entry `p - 4` inside, zero in the padding. -/
theorem padded_apply (x : FVec Ideal S512x4x2048 .f32) (n : Fin 512) (c : Fin 4) (p : Fin 2056) :
    padded x (ix3 n c p) = rowAt x n c p.val := by
  unfold padded rowAt
  by_cases h : 4 ≤ p.val ∧ p.val < 2052
  · rw [dif_pos h]
    refine pad_apply_of_inside _ _ _ x _ _ _ (ix3 n c p) (ix3 n c ⟨p.val - 4, by omega⟩) (fun a => ?_)
    match a with
    | ⟨0, _⟩ => show n.val = 0 + n.val * (0 + 1); omega
    | ⟨1, _⟩ => show c.val = 0 + c.val * (0 + 1); omega
    | ⟨2, _⟩ => show p.val = 4 + (p.val - 4) * (0 + 1); omega
  · rw [dif_neg h]
    refine (pad_apply_of_not_inside _ _ _ x _ _ _ (ix3 n c p) (2 : Fin 3) (fun hin => h ?_)).trans ?_
    · have h1 : 4 ≤ p.val := hin.1
      have h2 : (p.val - 4) / (0 + 1) < 2048 := hin.2.2
      omega
    · exact sitofp_zero

/-- A stretch read at `(n, 0, c, q)`: the padded row `(n, c)` at position `off + q`. -/
theorem piece_apply (x : FVec Ideal S512x4x2048 .f32) (off : Nat) (hs : S512x4x2056.Slices ![0, 0, off] S512x4x520)
    (n : Fin 512) (c : Fin 4) (q : Fin 520) (hq : off + q.val < 2056) :
    piece x off hs (ix4 n 0 c q) = rowAt x n c (off + q.val) := by
  unfold piece
  refine (broadcastInDim_apply _ _ _ (ix4 n 0 c q) (ix3 n c q) (fun a => ?_)).trans ?_
  · match a with
    | ⟨0, _⟩ => rfl
    | ⟨1, _⟩ => rfl
    | ⟨2, _⟩ => rfl
  refine (extractStridedSlice_apply _ (padded x) hs (ix3 n c q) (ix3 n c ⟨off + q.val, hq⟩) (fun a => ?_)).trans ?_
  · match a with
    | ⟨0, _⟩ => show n.val = 0 + n.val; omega
    | ⟨1, _⟩ => show c.val = 0 + c.val; omega
    | ⟨2, _⟩ => rfl
  exact padded_apply x n c ⟨off + q.val, hq⟩

/-- The stack read at `(n, j, c, q)`: the padded row `(n, c)` at position `512 j + q`. -/
theorem halo_apply_rowAt (x : FVec Ideal S512x4x2048 .f32) (n : Fin 512) (j : Fin 4) (c : Fin 4) (q : Fin 520) :
    halo x (ix4 n j c q) = rowAt x n c (512 * j.val + q.val) := by
  unfold halo
  refine (Cert.LibStackOfFn.concatenate_four_apply (t := S512x4x4x520) (s₁ := S512x1x4x520) (1 : Fin 4)
    ![piece x 0 Gen.slices_S512x4x2056_S512x4x520_0_0_0, piece x 512 Gen.slices_S512x4x2056_S512x4x520_0_0_512,
      piece x 1024 Gen.slices_S512x4x2056_S512x4x520_0_0_1024, piece x 1536 Gen.slices_S512x4x2056_S512x4x520_0_0_1536]
    _ rfl 1 rfl (ix4 n j c q) j (Nat.div_one _) (ix4 n 0 c q) (Nat.mod_one _).symm (fun b hb => ?_)).trans ?_
  · match b, hb with
    | ⟨0, _⟩, _ => rfl
    | ⟨1, _⟩, hb => exact absurd rfl hb
    | ⟨2, _⟩, _ => rfl
    | ⟨3, _⟩, _ => rfl
  have hq := q.isLt
  match j with
  | ⟨0, _⟩ => exact (piece_apply x 0 Gen.slices_S512x4x2056_S512x4x520_0_0_0 n c q (by omega)).trans (congrArg (rowAt x n c) (by show 0 + q.val = 512 * 0 + q.val; omega))
  | ⟨1, _⟩ => exact (piece_apply x 512 Gen.slices_S512x4x2056_S512x4x520_0_0_512 n c q (by omega)).trans (congrArg (rowAt x n c) (by show 512 + q.val = 512 * 1 + q.val; omega))
  | ⟨2, _⟩ => exact (piece_apply x 1024 Gen.slices_S512x4x2056_S512x4x520_0_0_1024 n c q (by omega)).trans (congrArg (rowAt x n c) (by show 1024 + q.val = 512 * 2 + q.val; omega))
  | ⟨3, _⟩ => exact (piece_apply x 1536 Gen.slices_S512x4x2056_S512x4x520_0_0_1536 n c q (by omega)).trans (congrArg (rowAt x n c) (by show 1536 + q.val = 512 * 3 + q.val; omega))

/-- The stack read at `(n, j, c, q)`: entry `512 j + q - 4` of row `(n, c)` of `x` when `4 ≤ 512 j + q < 2052`,
    zero otherwise. -/
theorem halo_apply (x : FVec Ideal S512x4x2048 .f32) (n : Fin 512) (j : Fin 4) (c : Fin 4) (q : Fin 520) :
    halo x (ix4 n j c q) = if h : 4 ≤ 512 * j.val + q.val ∧ 512 * j.val + q.val < 2052
      then x (ix3 n c ⟨512 * j.val + q.val - 4, by omega⟩) else 0 :=
  halo_apply_rowAt x n j c q

/-! ## The buffer the operations leave the stack in -/

/-- After the reference's host operations, the stack's buffer holds `halo` of what the input's buffer held: no
    operation before writes the input's buffer, and each operation's result is its function of its operands'. -/
theorem after_main_v9 (V0 : Valuation τ sig (Elt Ideal)) :
    (StableHlo.after (List.flatten [Gen.hostOps0, Gen.hostOps0_1, Gen.hostOps0_2]) V0 (Proc.devRef .tc main_v9)
        : S512x4x4x520.Idx → EReal)
      = halo (V0 (Proc.devRef .tc main_arg0)) := by
  simp only [Gen.hostOps0, Gen.hostOps0_1, Gen.hostOps0_2, List.flatten_cons, List.flatten_nil, List.append_nil,
    List.cons_append, List.nil_append]
  after_results
  rfl

end Cert.ReferenceIdeal.ConvHost

end
-- ==== Proof.RefValue.lean ====
/-
  The reference's result is the convolution of its launch arrays.

  The stacked array of haloed tiles, as the region finds it, is the launch input padded and tiled by the host lines
  (entry (n, j, c, q) is the padded row (n, c) at position 512 j + q). So what point `t` writes back is block `t` of
  the convolution (one block per batch and tile of 512 rows), the blocks fill the output array, and the run ends with
  the output array at the convolution and the arguments as launched.
-/
import proofs.«167356_g2000609548398270_pallasbulk_1038_18_alg».proof.Proof.RefBlock
import proofs.«167356_g2000609548398270_pallasbulk_1038_18_alg».proof.Proof.RefHost

set_option maxRecDepth 16384

noncomputable section

namespace Cert.ReferenceIdeal.ConvFrame

open Cert.ReferenceIdeal Cert.ReferenceIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The stacked array as the region finds it: the launch input, padded and cut into four haloed tiles per row. -/
theorem V_tiles (c : Dev nD) :
    (V m c main_v9 : S512x4x4x520.Idx → EReal) = Cert.ReferenceIdeal.ConvHost.halo (m ((c : Thread nD τ).loc main_arg0)) :=
  Cert.ReferenceIdeal.ConvHost.after_main_v9 (fun b => m (c, b))

/-- The payload of the blocks at point `t`, at row `r` and feature `d`, is the convolution at batch `t / 4`,
    row `512 (t % 4) + r`, feature `d`. -/
theorem block_entry (c : Dev nD) (t : Fin cfg0.N) (r : Fin 512) (d : Fin 256) :
    payload (F := Ideal) (iblk m c 0 t) (iblk m c 1 t) (iblk m c 2 t) (ix3 0 r d)
      = Cert.ConvSpec.conv (m ((c : Thread nD τ).loc main_arg0)) (m ((c : Thread nD τ).loc main_arg1)) (m ((c : Thread nD τ).loc main_arg2))
          (ix3 ⟨t.val / 4, by have := pt_lt t; omega⟩ ⟨512 * (t.val % 4) + r.val, by omega⟩ d) := by
  refine (payload_apply (iblk m c 0 t) (iblk m c 1 t) (iblk m c 2 t) r d).trans ?_
  show max (_ + _) 0 = max ((∑ k : Fin 9, ∑ ch : Fin 4,
      Cert.ConvSpec.tap (m ((c : Thread nD τ).loc main_arg0)) ⟨t.val / 4, by have := pt_lt t; omega⟩ ch ⟨512 * (t.val % 4) + r.val, by omega⟩ k
        * m ((c : Thread nD τ).loc main_arg1) (ix3 k ch d)) + m ((c : Thread nD τ).loc main_arg2) (ix2 0 d)) 0
  refine congrArg (fun z : EReal => max z 0) ?_
  refine congrArg₂ (fun a b : EReal => a + b) ?_ ?_
  · refine Finset.sum_congr rfl fun k _ => Finset.sum_congr rfl fun ch _ => ?_
    refine congrArg₂ (fun a b : EReal => a * b) ?_ ?_
    · refine (read_tile c t (V m c main_v9) ch _).trans ?_
      rw [V_tiles, Cert.ReferenceIdeal.ConvHost.halo_apply_rowAt]
      exact congrArg (Cert.ReferenceIdeal.ConvHost.rowAt _ _ ch)
        (by show 512 * (t.val % 4) + (r.val + k.val) = (512 * (t.val % 4) + r.val) + k.val; omega)
    · exact (read_weights c t (V m c main_arg1) k ch d).trans (congrFun (V_arg1 m c) _)
  · exact (read_bias c t (V m c main_arg2) d).trans (congrFun (V_arg2 m c) _)

/-- The same at any index of the block. -/
theorem block_fn (c : Dev nD) (t : Fin cfg0.N) (j : S1x512x256.Idx) :
    payload (F := Ideal) (iblk m c 0 t) (iblk m c 1 t) (iblk m c 2 t) j
      = Cert.ConvSpec.conv (m ((c : Thread nD τ).loc main_arg0)) (m ((c : Thread nD τ).loc main_arg1)) (m ((c : Thread nD τ).loc main_arg2))
          (((cfg0.win 3).blk t).view.emb j) := by
  obtain ⟨r, d, rfl⟩ : ∃ (r : Fin 512) (d : Fin 256), j = ix3 0 r d := ⟨j 1, j 2, funext fun a => by
    match a with
    | ⟨0, _⟩ => exact Fin.eq_zero _
    | ⟨1, _⟩ => rfl
    | ⟨2, _⟩ => rfl⟩
  exact (block_entry m c t r d).trans (congrArg _ (emb_out t r d).symm)

/-- What point `t` writes back is block `t` of the convolution of the launch arrays. -/
theorem flushed_eq (c : Dev nD) (t : Fin cfg0.N) :
    (dats m 0 c).flushed 3 t = ((cfg0.win 3).blk t).view.read (Elt Ideal)
      (Cert.ConvSpec.conv (m ((c : Thread nD τ).loc main_arg0)) (m ((c : Thread nD τ).loc main_arg1)) (m ((c : Thread nD τ).loc main_arg2))) := by
  rw [flushed_out]
  unfold outBlock
  rw [View.canon_unit_zero zeros3]
  funext j
  exact block_fn m c t j

/-- The blocks fill the output array: it ends as the convolution. -/
theorem final (c : Dev nD) :
    (dats m 0 c).arrAt 3 cfg0.N
      = Cert.ConvSpec.conv (m ((c : Thread nD τ).loc main_arg0)) (m ((c : Thread nD τ).loc main_arg1)) (m ((c : Thread nD τ).loc main_arg2)) :=
  (dats m 0 c).arrAt_eq_of_cover 3 _ (fun t _ => flushed_eq m c t) out_covered

/-- The reference's run, read: the result at the convolution of the launch arrays, the arguments unchanged. -/
theorem run : θ_run defs (onTc (τ := τ) (main (F := Ideal))) ⟨m, fun _ => 0, ρ⟩ fun r => ∀ c : Dev nD,
      r.2.mem ((c : Thread nD τ).loc main_v10)
        = Cert.ConvSpec.conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_named m ρ)

end Cert.ReferenceIdeal.ConvFrame

end
-- ==== Proof.lean ====
/-
  The kernel and its reference compute one function: a same-padded 1-D convolution with nine taps over four channels, plus a
  bias, clamped at zero (Proof/ConvSpec.lean), read on the extended reals.

  The kernel handles eight batch rows per grid point: for each row it lays the nine shifted copies of the row (zero where the
  shift leaves the row) on top of each other, puts the eight stacks side by side, and contracts the thirty-six stacked rows
  against the weights reshaped to [36, 256] in one product. The reference pads the input on the host, cuts every row into four
  tiles of 512 positions with a halo of eight, and at each (batch, tile) adds nine products of a shifted [4, 512] window with a
  [4, 256] weight slice, one after the other, onto zero. Entry (n, l, d) is in both the same thirty-six products
  x̃(n, c, l + k) · w(k, c, d); one program sums them over the stacked index 4k + c, the other as nine four-term sums in turn.
  Addition on the extended reals is associative and commutative, so both are the double sum over (k, c), and no finiteness of
  the inputs is needed: the two results are equal entry by entry for all extended-real inputs.

  Each program's run is read in two steps: what one grid point writes back is the block of the convolution it covers
  (Proof/KernelRun.lean for the kernel, Proof/RefValue.lean for the reference), and the blocks fill the output array. The
  kernel's idealization is its own text read on the extended reals, so nothing is owed for it.
-/
import proofs.«167356_g2000609548398270_pallasbulk_1038_18_alg».proof.Defs
import proofs.«167356_g2000609548398270_pallasbulk_1038_18_alg».proof.Proof.Gen.Kernel
import proofs.«167356_g2000609548398270_pallasbulk_1038_18_alg».proof.Proof.Gen.Kernel.Frame
import proofs.«167356_g2000609548398270_pallasbulk_1038_18_alg».proof.Proof.Gen.KernelIdeal
import proofs.«167356_g2000609548398270_pallasbulk_1038_18_alg».proof.Proof.Gen.KernelIdeal.Frame
import proofs.«167356_g2000609548398270_pallasbulk_1038_18_alg».proof.Proof.Gen.KernelIdeal.Value
import proofs.«167356_g2000609548398270_pallasbulk_1038_18_alg».proof.Proof.Gen.ReferenceIdeal
import proofs.«167356_g2000609548398270_pallasbulk_1038_18_alg».proof.Proof.Gen.Pre_finite_inputs
import proofs.«167356_g2000609548398270_pallasbulk_1038_18_alg».proof.Proof.ConvSpec
import proofs.«167356_g2000609548398270_pallasbulk_1038_18_alg».proof.Proof.KernelRun
import proofs.«167356_g2000609548398270_pallasbulk_1038_18_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ => Cert.ReferenceIdeal.ConvFrame.frame m ρ

/-- Both programs end with their result at the convolution of the arguments; the arguments agree, so the results do. -/
theorem algebraic : Cert.algebraic_KernelIdeal_ReferenceIdeal := by
  intro m ρ m' ρ' _ hagree
  refine ⟨fun c => Cert.ConvSpec.conv (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.ConvValue.run m ρ, ?_⟩
  refine (θ_run Cert.ReferenceIdeal.defs _ _).mono (fun r h c => ⟨(h c).1.trans ?_, (h c).2⟩)
    (Cert.ReferenceIdeal.ConvFrame.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
